-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S_ : Shape := ⟨0, ![]⟩

class Facts : Prop where
  bcast_S_S2x10000x10000 : S_.BroadcastsInDim S2x10000x10000 (![] : Fin 0 → Fin S2x10000x10000.rank)
  reducesTo_S2x10000x10000_S_d0_1_2 : S2x10000x10000.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x10000x10000 .f32) (main_arg1 : FVec F S10000x64 .f32) (main_arg2 : FVec F S64x64 .f32) (main_arg3 : FVec F S64 .f32) (main_arg4 : FVec F S64x64 .f32) (main_arg5 : FVec F S64 .f32) : IVec S_ 1 :=
  let main_v0 : FVec F S2x10000x10000 .f32 := Host.absf main_arg0
  let main_cst : FVec F S_ .f32 := constant S_ .f32 0x7F800000#32
  let main_v1 : FVec F S2x10000x10000 .f32 := broadcastInDim S2x10000x10000 ![] bcast_S_S2x10000x10000 main_cst
  let main_v2 : IVec S2x10000x10000 1 := cmpf .olt main_v0 main_v1
  let main_c : IVec S_ 1 := constantI S_ 1 1#1
  let main_v3 : IVec S_ 1 := (fun x v => Host.reduce IntOp.andi x v reducesTo_S2x10000x10000_S_d0_1_2 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S1x64 : Shape := ⟨2, ![1, 64]⟩
abbrev S2x10000x64 : Shape := ⟨3, ![2, 10000, 64]⟩
abbrev S1x400x10000 : Shape := ⟨3, ![1, 400, 10000]⟩
abbrev S1x400x64 : Shape := ⟨3, ![1, 400, 64]⟩
abbrev S400x10000 : Shape := ⟨2, ![400, 10000]⟩
abbrev S400x64 : Shape := ⟨2, ![400, 64]⟩
abbrev S1x10000x64 : Shape := ⟨3, ![1, 10000, 64]⟩

abbrev nBuf : Space → Nat
  | .hbm => 10
  | .vmem => 17
  | .smem => 0
  | _ => 0

abbrev bufTy : (tb : Table) → Fin (tcTables nBuf tb) → BufTy
  | .hbm, ⟨0, _⟩ => ⟨S2x10000x10000, .f32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S2x10000x64, .f32⟩
  | .hbm, ⟨9, _⟩ => ⟨S2x10000x64, .f32⟩
  | .local _ .vmem, ⟨0, _⟩ => ⟨S1x400x10000, .f32⟩
  | .local _ .vmem, ⟨1, _⟩ => ⟨S1x400x10000, .f32⟩
  | .local _ .vmem, ⟨2, _⟩ => ⟨S10000x64, .f32⟩
  | .local _ .vmem, ⟨3, _⟩ => ⟨S64x64, .f32⟩
  | .local _ .vmem, ⟨4, _⟩ => ⟨S1x64, .f32⟩
  | .local _ .vmem, ⟨5, _⟩ => ⟨S1x400x64, .f32⟩
  | .local _ .vmem, ⟨6, _⟩ => ⟨S1x400x64, .f32⟩
  | .local _ .vmem, ⟨7, _⟩ => ⟨S10000x64, .f32⟩
  | .local _ .vmem, ⟨8, _⟩ => ⟨S1x400x10000, .f32⟩
  | .local _ .vmem, ⟨9, _⟩ => ⟨S1x400x10000, .f32⟩
  | .local _ .vmem, ⟨10, _⟩ => ⟨S1x10000x64, .f32⟩
  | .local _ .vmem, ⟨11, _⟩ => ⟨S1x10000x64, .f32⟩
  | .local _ .vmem, ⟨12, _⟩ => ⟨S64x64, .f32⟩
  | .local _ .vmem, ⟨13, _⟩ => ⟨S1x64, .f32⟩
  | .local _ .vmem, ⟨14, _⟩ => ⟨S1x400x64, .f32⟩
  | .local _ .vmem, ⟨15, _⟩ => ⟨S1x400x64, .f32⟩
  | .local _ .vmem, ⟨16, _⟩ => ⟨S10000x64, .f32⟩
  | _, _ => ⟨S2x10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S1x400x64_S1x400x64_0_0_0 : ∀ a, (![0, 0, 0] : Fin 3 → Nat) a + S1x400x64.size a ≤ S1x400x64.size a
  h_S1x400x64 : 0 < S1x400x64.numel
  shapeCasts_S1x400x64_S400x64 : S1x400x64.ShapeCasts S400x64
  shapeCasts_S400x64_S1x400x64 : S400x64.ShapeCasts S1x400x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  dot_S10000x64_S64x64_S10000x64_1_0_0_1_n_n_wf : DotDims.WF S10000x64 S64x64 S10000x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x400x64.size a ≤ S2x10000x64.size a
  hwx0_4 : ∀ i : grid0.Coords, EltTy.bits .f32 = 32 ∨ (Rect.block (s := S2x10000x64) S1x400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S2x10000x10000.size a
  hwx1_0 : ∀ i : grid1.Coords, EltTy.bits .f32 = 32 ∨ (Rect.block (s := S2x10000x10000) S1x400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x64.size a ≤ S2x10000x64.size a
  hwx1_1 : ∀ i : grid1.Coords, EltTy.bits .f32 = 32 ∨ (Rect.block (s := S2x10000x64) S1x10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x400x64.size a ≤ S2x10000x64.size a
  hwx1_4 : ∀ i : grid1.Coords, EltTy.bits .f32 = 32 ∨ (Rect.block (s := S2x10000x64) S1x400x64.size (cc1_transform_4 i) (hinb1_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S1x10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S1x10000x10000 : Shape := ⟨3, ![1, 10000, 10000]⟩
abbrev S10000x10000 : Shape := ⟨2, ![10000, 10000]⟩
abbrev S1x64 : Shape := ⟨2, ![1, 64]⟩
abbrev S_ : Shape := ⟨0, ![]⟩
abbrev S1x10000x64 : Shape := ⟨3, ![1, 10000, 64]⟩
abbrev S2x10000x64 : Shape := ⟨3, ![2, 10000, 64]⟩

abbrev nBuf : Space → Nat
  | .hbm => 47
  | .vmem => 0
  | .smem => 0
  | _ => 0

abbrev bufTy : (tb : Table) → Fin (tcTables nBuf tb) → BufTy
  | .hbm, ⟨0, _⟩ => ⟨S2x10000x10000, .f32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x10000x10000, .f32⟩
  | .hbm, ⟨7, _⟩ => ⟨S10000x10000, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .i1⟩
  | .hbm, ⟨16, _⟩ => ⟨S_, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S1x10000x10000, .f32⟩
  | .hbm, ⟨26, _⟩ => ⟨S10000x10000, .f32⟩
  | .hbm, ⟨27, _⟩ => ⟨S10000x64, .f32⟩
  | .hbm, ⟨28, _⟩ => ⟨S10000x64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .i1⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S10000x64, .f32⟩
  | .hbm, ⟨41, _⟩ => ⟨S1x64, .f32⟩
  | .hbm, ⟨42, _⟩ => ⟨S10000x64, .f32⟩
  | .hbm, ⟨43, _⟩ => ⟨S10000x64, .f32⟩
  | .hbm, ⟨44, _⟩ => ⟨S1x10000x64, .f32⟩
  | .hbm, ⟨45, _⟩ => ⟨S1x10000x64, .f32⟩
  | .hbm, ⟨46, _⟩ => ⟨S2x10000x64, .f32⟩
  | _, _ => ⟨S2x10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  slices_S2x10000x10000_S1x10000x10000_1_0_0 : S2x10000x10000.Slices ![1, 0, 0] S1x10000x10000
  bcast_S10000x64_S1x10000x64_1_2 : S10000x64.BroadcastsInDim S1x10000x64 (![1, 2] : Fin 2 → Fin S1x10000x64.rank)
  concatenates_S1x10000x64_S1x10000x64_S2x10000x64_d0 : Shape.Concatenates [S1x10000x64, S1x10000x64] S2x10000x64 0
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Data0.lean ====
/-
  Region 0 (the first graph-convolution layer) as the pipeline sees it, at the buffer contents `V` the region is
  entered with: each window's block at a grid point; what the carried scratch holds after a point (the product of the
  feature block with the weight matrix, recomputed at the first row tile of each batch element and kept at the other
  row tiles); what the output block holds after a point; the invariant between points; the pipeline's proof data.
-/
import proofs.«122898_g28621662060800_retrytranche2_548_3_alg».proof.Proof.Gen.Kernel.Launch
import proofs.«122898_g28621662060800_retrytranche2_548_3_alg».proof.Proof.Gen.Kernel.Skeleton
import proofs.«122898_g28621662060800_retrytranche2_548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not:
    where it is not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not:
    where it is not fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not:
    where it is not fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, fetched there or not:
    where it is not fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch of the body -/

/-- The condition of the body's `scf.if`: the second grid coordinate is zero (the first row tile of a batch element). -/
abbrev cond0 (i : grid0.Coords) : Prop := (Scalar.cmpi .ne (Scalar.extui (Scalar.cmpi .eq (BitVec.ofNat 32 (i 1).val) 0#32)) 0#32) = 1#1
/-- It holds at the points that are multiples of 25. -/
theorem hcond0 : ∀ t : Fin cfg0.N, cond0 (grid0.coords t) ↔ t.val % 25 = 0 :=
  (by decide +kernel : ∀ t : Fin grid0.N, cond0 (grid0.coords t) ↔ t.val % 25 = 0)

/-! ## What the scratch and the output hold -/

/-- The scratch operand: a whole scoped buffer of the kernel's own. -/
abbrev scM0 : Memref sig .tc .vmem S10000x64 .f32 := Memref.whole cc0_scratch0

/-- What the scratch holds after the point at position `n`: at a multiple of 25 the product of that point's feature
    and weight blocks, elsewhere what the point before left. -/
def scr0 (c : Dev nD) : (n : ℕ) → n < cfg0.N → Vec F S10000x64 .f32
  | 0, hn => k0_pay1 (iblk0 V c 1 ⟨0, hn⟩) (iblk0 V c 2 ⟨0, hn⟩)
  | n + 1, hn =>
    if (n + 1) % 25 = 0 then k0_pay1 (iblk0 V c 1 ⟨n + 1, hn⟩) (iblk0 V c 2 ⟨n + 1, hn⟩)
    else scr0 c n (Nat.lt_of_succ_lt hn)

theorem scr0_A (c : Dev nD) (t : Fin cfg0.N) (h : t.val % 25 = 0) :
    scr0 V c t.val t.isLt = k0_pay1 (iblk0 V c 1 t) (iblk0 V c 2 t) := by
  obtain ⟨n, hn⟩ := t
  cases n with
  | zero => rfl
  | succ n => exact if_pos h

theorem scr0_B (c : Dev nD) (t : Fin cfg0.N) (h : ¬t.val % 25 = 0) :
    scr0 V c t.val t.isLt = scr0 V c (t.val - 1) (Nat.lt_of_le_of_lt (Nat.sub_le _ _) t.isLt) := by
  obtain ⟨n, hn⟩ := t
  cases n with
  | zero => exact absurd (Nat.zero_mod _) h
  | succ n => exact if_neg h

/-- What the output window's staging buffer holds after point `t`. -/
def out0 (c : Dev nD) (t : Fin cfg0.N) : Vec F S1x400x64 .f32 :=
  k0_pay2 (iblk0 V c 0 t) (scr0 V c t.val t.isLt) (iblk0 V c 3 t)

/-! ## The invariant between points -/

/-- The scoped buffers that are neither a staging buffer of this region nor its scratch, each at some contents. -/
def restO0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch singled out as a memref owned at some contents. -/
theorem PhiA0_eq (c : Dev nD) :
    (Pipeline.ΦA spec0 c : sProp 𝕄) = iprop(iprop((∃ d, owns (c : Thread nD τ) scM0 fullShare d) ∗ restO0 c) ∗ (∃ r, prngReg c r)) := by
  unfold Pipeline.ΦA restO0; rw [scopedRest0_eq]; simp only [scM0, owns_whole]; rfl

/-- The invariant before position `n`: before the first point every scoped buffer at anything; afterwards the scratch
    at what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scr0 V c n hn) ∗ restO0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scr0 V c n hn) ∗ restO0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scr0 V c (n - 1) (by omega)) ∗ restO0 c) ∗ (∃ r, prngReg c r)) := by
  cases n with
  | zero => exact absurd rfl hz
  | succ n => rfl

/-! ## The pipeline's proof data -/

/-- The proof data of pipeline 0 on core `c`: the arrays as the region finds them; after the body at a point each
    input's buffer at its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.K.Body0.lean ====
/-
  The kernel function of region 0 (one graph-convolution layer's row tile) on ANY whole staging memrefs, in the two
  cases of its one conditional. At the first row tile of a batch element (case A) it stores the product of the
  feature block with the weight matrix into the scratch, whole, and reads it back; at the other row tiles (case B)
  it reads the scratch as it finds it. In both cases it then stores, whole, into the output block the product of the
  adjacency row tile with the scratch, plus the bias, through the leaky rectifier. Every access is through the
  whole-buffer rectangle at zero offsets, so a load reads the buffer's contents and a store leaves its payload.
-/
import proofs.«122898_g28621662060800_retrytranche2_548_3_alg».proof.Proof.K.Data0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a two-axis whole-buffer rectangle, as the constant function. -/
theorem offsets2_zero0 : (![0, 0] : Fin 2 → Nat) = fun _ => 0 := funext fun a => by fin_cases a <;> rfl
/-- The zero offsets of a three-axis whole-buffer rectangle, as the constant function. -/
theorem offsets3_zero0 : (![0, 0, 0] : Fin 3 → Nat) = fun _ => 0 := funext fun a => by fin_cases a <;> rfl

/-- One store through the whole-buffer rectangle at zero offsets covers the buffer. -/
theorem cover_wholeStore0 {Val : EltTy → Type} {S : Shape} {e : EltTy} {off : Fin S.rank → Nat} (h : off = fun _ => 0)
    (inb : ∀ a, off a + S.size a ≤ S.size a) (w : S.Idx → Val e) :
    ∀ y : S.Idx, ∃ p ∈ ([⟨Rect.unit off S.size inb, w⟩] : List (View.Piece Val S e)), y ∈ p.1.set :=
  fun y => ⟨_, List.mem_singleton_self _, View.mem_set_unit_zero h inb y⟩

set_option maxHeartbeats 1000000 in
/-- CASE A (the first row tile of a batch element): from the four inputs at their contents, the output block and the
    scratch at anything, the body runs to the continuation holding the inputs as they were, the scratch at the
    product of the feature block with the weights, and the output block at the layer's row tile computed from that
    product: the scratch is read back through the rectangle it was just stored through, so the load reads the store's
    payload. -/
theorem kernel0_A (c : Dev nD) (E : Set ℕ) (i : grid0.Coords) (arg2 : Memref sig .tc .vmem S1x400x10000 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole)
    (hc : cond0 i)
    (x0 : Vec F S1x400x10000 .f32) (x1 : Vec F S10000x64 .f32) (x2 : Vec F S64x64 .f32) (x3 : Vec F S1x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 (k0_pay1 x1 x2) x3)
            ∗ owns (c : Thread nD τ) arg7 fullShare (k0_pay1 x1 x2)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (cover_wholeStore0 offsets3_zero0 _ _),
      View.canon_unit_zero offsets3_zero0, View.readCov_unit_zero (S := S10000x64) _ offsets2_zero0]
    simp only [View.readAt_eq_ld, harg2.read_unread, harg3.read_unread, harg4.read_unread, harg5.read_unread,
      View.ld_unit_zero (S := S1x400x10000) offsets3_zero0, View.ld_unit_zero (S := S10000x64) offsets2_zero0,
      View.ld_unit_zero (S := S64x64) offsets2_zero0, View.ld_unit_zero (S := S1x64) offsets2_zero0]
  iexists _; isplitr
  swap; · iexact H5
  ipureintro
  sl_unfold_run_names
  rw [View.read_writes_eq_canon _ _ _ (cover_wholeStore0 offsets2_zero0 _ _),
    View.canon_unit_zero offsets2_zero0]
  simp only [View.readAt_eq_ld, harg3.read_unread, harg4.read_unread,
    View.ld_unit_zero (S := S10000x64) offsets2_zero0, View.ld_unit_zero (S := S64x64) offsets2_zero0]

set_option maxHeartbeats 1000000 in
/-- CASE B (any other row tile): the scratch holds `xs`, which the body reads and leaves; the output block ends at the
    layer's row tile computed from `xs`. -/
theorem kernel0_B (c : Dev nD) (E : Set ℕ) (i : grid0.Coords) (arg2 : Memref sig .tc .vmem S1x400x10000 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole)
    (hc : ¬cond0 i)
    (x0 : Vec F S1x400x10000 .f32) (x1 : Vec F S10000x64 .f32) (x2 : Vec F S64x64 .f32) (x3 : Vec F S1x64 .f32)
    (xs : Vec F S10000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 xs x3)
            ∗ owns (c : Thread nD τ) arg7 fullShare xs) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (cover_wholeStore0 offsets3_zero0 _ _),
      View.canon_unit_zero offsets3_zero0]
    simp only [View.readAt_eq_ld, harg2.read_unread, harg5.read_unread, harg7.read_unread,
      View.ld_unit_zero (S := S1x400x10000) offsets3_zero0, View.ld_unit_zero (S := S10000x64) offsets2_zero0,
      View.ld_unit_zero (S := S1x64) offsets2_zero0]
  iexists _; isplitr; · ipureintro; exact harg7.read_unread _
  iexact H5

end Cert.Kernel.Hand

end
-- ==== Proof.K.Obl0.lean ====
/-
  Region 0: the kernel body meets the pipeline's obligation at every grid point, and the invariant's two ends.
  At a point the four input windows' staging buffers hold their blocks; the invariant hands the body the scratch —
  at anything before the first point, afterwards at what the point before left in it — and takes it back at what
  this point leaves: the product of the feature block with the weights at the first row tile of a batch element,
  unchanged elsewhere. The output window's buffer ends at the layer's row tile computed from the scratch.
-/
import proofs.«122898_g28621662060800_retrytranche2_548_3_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging
    buffer at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the invariant after the point, and each window's buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The inputs' buffers hold their blocks. At a multiple of 25 (the first row tile of a batch
    element) the body recomputes the scratch, so whatever the invariant hands over will do (anything at the first
    point, the previous point's contents later); elsewhere the point is not the first, the invariant hands the
    scratch at what the point before left, and the body leaves it there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  unfold out0
  by_cases h : t.val % 25 = 0
  · rw [scr0_A V c t h]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (kernel0_A c Set.univ (grid0.coords t) _ _ _ _ _ _ _ _ _ _ _ _ ((hcond0 t).mpr h) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernel0_A c Set.univ (grid0.coords t) _ _ _ _ _ _ _ _ _ _ _ _ ((hcond0 t).mpr h) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
  · have hz : t.val ≠ 0 := fun e => h (by rw [e])
    rw [scr0_B V c t h]
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (kernel0_B c Set.univ (grid0.coords t) _ _ _ _ _ _ _ _ _ _ _ _ (fun hh => h ((hcond0 t).mp hh)) (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- After the last point the invariant gives the class invariant back: the scratch's contents are forgotten. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.Data1.lean ====
/-
  Region 1 (the second graph-convolution layer) as the pipeline sees it, at the buffer contents `V` the region is
  entered with: each window's block at a grid point; what the carried scratch holds after a point (the product of the
  feature block with the weight matrix, recomputed at the first row tile of each batch element and kept at the other
  row tiles); what the output block holds after a point; the invariant between points; the pipeline's proof data.
-/
import proofs.«122898_g28621662060800_retrytranche2_548_3_alg».proof.Proof.Gen.Kernel.Launch
import proofs.«122898_g28621662060800_retrytranche2_548_3_alg».proof.Proof.Gen.Kernel.Skeleton
import proofs.«122898_g28621662060800_retrytranche2_548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not:
    where it is not fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not:
    where it is not fetched the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not:
    where it is not fetched the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not:
    where it is not fetched the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch of the body -/

/-- The condition of the body's `scf.if`: the second grid coordinate is zero (the first row tile of a batch element). -/
abbrev cond1 (i : grid1.Coords) : Prop := (Scalar.cmpi .ne (Scalar.extui (Scalar.cmpi .eq (BitVec.ofNat 32 (i 1).val) 0#32)) 0#32) = 1#1
/-- It holds at the points that are multiples of 25. -/
theorem hcond1 : ∀ t : Fin cfg1.N, cond1 (grid1.coords t) ↔ t.val % 25 = 0 :=
  (by decide +kernel : ∀ t : Fin grid1.N, cond1 (grid1.coords t) ↔ t.val % 25 = 0)

/-! ## What the scratch and the output hold -/

/-- The scratch operand: a whole scoped buffer of the kernel's own. -/
abbrev scM1 : Memref sig .tc .vmem S10000x64 .f32 := Memref.whole cc1_scratch0

/-- What the scratch holds after the point at position `n`: at a multiple of 25 the product of that point's feature
    and weight blocks, elsewhere what the point before left. -/
def scr1 (c : Dev nD) : (n : ℕ) → n < cfg1.N → Vec F S10000x64 .f32
  | 0, hn => k1_pay1 (iblk1 V c 1 ⟨0, hn⟩) (iblk1 V c 2 ⟨0, hn⟩)
  | n + 1, hn =>
    if (n + 1) % 25 = 0 then k1_pay1 (iblk1 V c 1 ⟨n + 1, hn⟩) (iblk1 V c 2 ⟨n + 1, hn⟩)
    else scr1 c n (Nat.lt_of_succ_lt hn)

theorem scr1_A (c : Dev nD) (t : Fin cfg1.N) (h : t.val % 25 = 0) :
    scr1 V c t.val t.isLt = k1_pay1 (iblk1 V c 1 t) (iblk1 V c 2 t) := by
  obtain ⟨n, hn⟩ := t
  cases n with
  | zero => rfl
  | succ n => exact if_pos h

theorem scr1_B (c : Dev nD) (t : Fin cfg1.N) (h : ¬t.val % 25 = 0) :
    scr1 V c t.val t.isLt = scr1 V c (t.val - 1) (Nat.lt_of_le_of_lt (Nat.sub_le _ _) t.isLt) := by
  obtain ⟨n, hn⟩ := t
  cases n with
  | zero => exact absurd (Nat.zero_mod _) h
  | succ n => exact if_neg h

/-- What the output window's staging buffer holds after point `t`. -/
def out1 (c : Dev nD) (t : Fin cfg1.N) : Vec F S1x400x64 .f32 :=
  k1_pay2 (iblk1 V c 0 t) (scr1 V c t.val t.isLt) (iblk1 V c 3 t)

/-! ## The invariant between points -/

/-- The scoped buffers that are no staging buffer of this region: the others each at some contents, and last the
    region's scratch as `S` describes it. -/
def restO1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ S)

/-- The class invariant with the scratch singled out as a memref owned at some contents. -/
theorem PhiA1_eq (c : Dev nD) :
    (Pipeline.ΦA spec1 c : sProp 𝕄) = iprop(iprop(restO1 c iprop(∃ d, owns (c : Thread nD τ) scM1 fullShare d)) ∗ (∃ r, prngReg c r)) := by
  unfold Pipeline.ΦA restO1; rw [scopedRest1_eq]; simp only [scM1, owns_whole]; rfl

/-- The invariant before position `n`: before the first point every scoped buffer at anything; afterwards the scratch
    at what the point before left in it, the other scoped buffers at anything, the generator register at some state. -/
def PhiS1 (c : Dev nD) : (n : ℕ) → n ≤ cfg1.N → sProp 𝕄
  | 0, _ => Pipeline.ΦA spec1 c
  | n + 1, hn => iprop(iprop(restO1 c (owns (c : Thread nD τ) scM1 fullShare (scr1 V c n hn))) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(restO1 c (owns (c : Thread nD τ) scM1 fullShare (scr1 V c n hn))) ∗ (∃ r, prngReg c r)) := rfl

theorem PhiS1_pos (c : Dev nD) (n : ℕ) (h : n ≤ cfg1.N) (hz : n ≠ 0) :
    PhiS1 V c n h = iprop(iprop(restO1 c (owns (c : Thread nD τ) scM1 fullShare (scr1 V c (n - 1) (by omega)))) ∗ (∃ r, prngReg c r)) := by
  cases n with
  | zero => exact absurd rfl hz
  | succ n => rfl

/-! ## The pipeline's proof data -/

/-- The proof data of pipeline 1 on core `c`: the arrays as the region finds them; after the body at a point each
    input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.K.Body1.lean ====
/-
  The second layer's kernel function on whole staging buffers: its triple in the two cases of its one conditional.
  At the first row tile of a batch element the function stores the product of the feature block and the weight
  matrix into the carried scratch, reads it back, and stores the adjacency tile times that product plus the bias
  into the output tile; at the other row tiles it reads the scratch as the point before left it.
-/
import proofs.«122898_g28621662060800_retrytranche2_548_3_alg».proof.Proof.K.Data1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores -/

private theorem zeros2 : (![0, 0] : Fin 2 → ℕ) = fun _ => 0 := by funext a; fin_cases a <;> rfl
private theorem zeros3 : (![0, 0, 0] : Fin 3 → ℕ) = fun _ => 0 := by funext a; fin_cases a <;> rfl

/-- A load of a whole buffer through the full rectangle at zero offsets reads the buffer's contents. -/
private theorem readAt_whole_unit {S : Shape} {e : EltTy} {sp : Space} (m : Memref sig .tc sp S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero h inb X

/-- One store through the full rectangle at zero offsets leaves its payload, whatever the buffer held. -/
private theorem read_store_whole_unit {S : Shape} {e : EltTy} {sp : Space} (m : Memref sig .tc sp S e)
    {off : Fin S.rank → ℕ} (h : off = fun _ => 0) (inb : ∀ a, off a + S.size a ≤ S.size a)
    (f : m.view.ty.Contents (Elt F)) (w : S.Idx → Elt F e) :
    View.read (Elt F) m.view (m.view.writes (Elt F) f [⟨Rect.unit off S.size inb, w⟩]) = w := by
  rw [View.read_writes_eq_canon _ _ _ (fun y => ⟨_, List.mem_singleton_self _, View.mem_set_unit_zero h inb y⟩)]
  exact View.canon_unit_zero h inb w

set_option maxHeartbeats 1000000 in
/-- Away from the first row tile: the scratch is read as the point before left it and handed back untouched; the
    output tile is left at the adjacency tile times the scratch plus the bias. -/
theorem body1_B (c : Dev nD) (E : Set ℕ) (i : grid1.Coords)
    (arg2 : Memref sig .tc .vmem S1x400x10000 .f32) (harg2 : arg2.IsWhole)
    (arg3 : Memref sig .tc .vmem S1x10000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1x400x64 .f32) (harg6 : arg6.IsWhole)
    (arg7 : Memref sig .tc .vmem S10000x64 .f32) (harg7 : arg7.IsWhole)
    (hc : ¬cond1 i)
    (x0 : Vec F S1x400x10000 .f32) (x1 : Vec F S1x10000x64 .f32) (x2 : Vec F S64x64 .f32) (x3 : Vec F S1x64 .f32)
    (xs : Vec F S10000x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 xs x3) ∗ owns (c : Thread nD τ) arg7 fullShare xs) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    rw [read_store_whole_unit arg6 zeros3, readAt_whole_unit arg2 harg2 zeros3, readAt_whole_unit arg7 harg7 zeros2,
      readAt_whole_unit arg5 harg5 zeros2]
  iexists _; isplitr; · ipureintro; exact harg7.read_unread _
  iexact H7

set_option maxHeartbeats 1000000 in
/-- At the first row tile of a batch element: the scratch, whatever it held, is stored whole at the product of the
    feature block and the weight matrix and read back; the output tile is left at the adjacency tile times that
    product plus the bias. -/
theorem body1_A (c : Dev nD) (E : Set ℕ) (i : grid1.Coords)
    (arg2 : Memref sig .tc .vmem S1x400x10000 .f32) (harg2 : arg2.IsWhole)
    (arg3 : Memref sig .tc .vmem S1x10000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1x400x64 .f32) (harg6 : arg6.IsWhole)
    (arg7 : Memref sig .tc .vmem S10000x64 .f32) (harg7 : arg7.IsWhole)
    (hc : cond1 i)
    (x0 : Vec F S1x400x10000 .f32) (x1 : Vec F S1x10000x64 .f32) (x2 : Vec F S64x64 .f32) (x3 : Vec F S1x64 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 (k1_pay1 x1 x2) x3) ∗ owns (c : Thread nD τ) arg7 fullShare (k1_pay1 x1 x2)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  obtain rfl := harg2.eq_unread hf0; obtain rfl := harg3.eq_unread hf1; obtain rfl := harg4.eq_unread hf2
  obtain rfl := harg5.eq_unread hf3
  sl_exec (disch := exact hc)
  sl_unfold_run_names
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    rw [read_store_whole_unit arg6 zeros3, View.readCov_cons_toLoadRect, readAt_whole_unit arg2 harg2 zeros3,
      readAt_whole_unit arg3 harg3 zeros3, readAt_whole_unit arg4 harg4 zeros2, readAt_whole_unit arg5 harg5 zeros2]
  iexists _; isplitr
  swap; · iexact H7
  ipureintro
  rw [read_store_whole_unit arg7 zeros2, readAt_whole_unit arg3 harg3 zeros3, readAt_whole_unit arg4 harg4 zeros2]

end Cert.Kernel.Hand

end
-- ==== Proof.K.Obl1.lean ====
/-
  Region 1: the kernel body meets the pipeline's obligation at every grid point, and the invariant's two ends.
-/
import proofs.«122898_g28621662060800_retrytranche2_548_3_alg».proof.Proof.K.Data1
import proofs.«122898_g28621662060800_retrytranche2_548_3_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant before the point, what the core owes, and each window's
    current staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the invariant after the point, the same debt, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point. The inputs' buffers hold their blocks. At a multiple of 25 (the first row tile of a batch
    element) the scratch is handed over at some contents — anything at the very first point, what the point before left
    afterwards — and comes back at the product of this point's feature and weight blocks; elsewhere it is handed over at
    what the point before left and comes back unchanged. Either way the output tile is left at the adjacency tile
    times the scratch plus the bias; the other scoped buffers, the generator register and the debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  unfold out1
  by_cases h : t.val % 25 = 0
  · rw [scr1_A V c t h]
    by_cases hz : t.val = 0
    · rw [PhiS1_castSucc V c t, PhiS1_zero V c _ _ hz, PhiA1_eq]
      unfold restO1
      iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
      iapply (body1_A c Set.univ (grid1.coords t) _ _ _ _ _ _ _ _ _ _ _ _ ((hcond1 t).mpr h) (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr0 Hr1 Hr2 Hr3 Hr4 Hr5 Hr6 Hr7 HS Hg]
      · isplitl [Hr0 Hr1 Hr2 Hr3 Hr4 Hr5 Hr6 Hr7 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          iexact HS
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      unfold restO1
      iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
      iapply (body1_A c Set.univ (grid1.coords t) _ _ _ _ _ _ _ _ _ _ _ _ ((hcond1 t).mpr h) (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [Hr0 Hr1 Hr2 Hr3 Hr4 Hr5 Hr6 Hr7 HS Hg]
      · isplitl [Hr0 Hr1 Hr2 Hr3 Hr4 Hr5 Hr6 Hr7 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := fun e => h (by rw [e])
    rw [scr1_B V c t h, PhiS1_castSucc V c t, PhiS1_pos V c _ _ hz]
    unfold restO1
    iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
    iapply (body1_B c Set.univ (grid1.coords t) _ _ _ _ _ _ _ _ _ _ _ _ (fun hc => h ((hcond1 t).mp hc)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hr0 Hr1 Hr2 Hr3 Hr4 Hr5 Hr6 Hr7 HS Hg]
    · isplitl [Hr0 Hr1 Hr2 Hr3 Hr4 Hr5 Hr6 Hr7 HS]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        iexact HS
      iexact Hg
    isplitl [Ho]; · iexact Ho
    isplitl [H0]; · iexact H0
    isplitl [H1]; · iexact H1
    isplitl [H2]; · iexact H2
    isplitl [H3]; · iexact H3
    iexact H4

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hN : cfg1.N = 50 := N_1
  have ht : (Fin.last cfg1.N).val ≠ 0 := by rw [Fin.val_last]; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold restO1
  iintro ⟨⟨Hr0, Hr1, Hr2, Hr3, Hr4, Hr5, Hr6, Hr7, HS⟩, Hg⟩
  isplitl [Hr0 Hr1 Hr2 Hr3 Hr4 Hr5 Hr6 Hr7 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexists _; iexact HS
  iexact Hg

end Cert.Kernel.Hand

end
-- ==== Proof.K.Run.lean ====
/-
  The whole program as a sequence of three items — two reshapes of the bias vectors on the host, then the two
  graph-convolution regions — and what every unscoped buffer holds between them: the launch memory; after the reshapes;
  after region 0 (its output array at what its grid points wrote back, everything else as before); after region 1
  likewise. Each region is entered from every unscoped buffer at the contents before it, beside the generator
  register and the core owing nothing, and left at the contents after it. The arguments are read back through the
  chain to the launch memory: no item writes one.
-/
import proofs.«122898_g28621662060800_retrytranche2_548_3_alg».proof.Proof.K.Obl0
import proofs.«122898_g28621662060800_retrytranche2_548_3_alg».proof.Proof.K.Obl1
import proofs.«122898_g28621662060800_retrytranche2_548_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- After the host reshapes, read at the TensorCore's references: what region 0 is entered with. -/
abbrev E1 : (c : Dev nD) → (b : Ref sig .tc) → Buf (Elt F) ((c : Thread nD τ).loc b) := fun c b => Gen.V1 m c b

/-- After region 0: its arrays at what the pipeline leaves (the inputs as entered, the output's write-backs folded),
    every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- The same read at the TensorCore's references: what region 1 is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1, likewise. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## What a region's input window leaves in its array: the array as entered -/

theorem W2_in (c : Dev nD) (w : Fin cfg0.W) (hw : (cfg0.win w).isOut = false) :
    W2 m c (Proc.devRef .tc (Pipeline.arrRef spec0 w)) = Gen.V1 m c (Proc.devRef .tc (Pipeline.arrRef spec0 w)) :=
  (W2_arr m c w).trans (((dat0 (E1 m) c).arrAt_in w hw _).trans (A_eq0 (E1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (E2 m) c).arrAt_in w hw _).trans (A_eq1 (E2 m) c w))

/-! ## The arguments end as launched -/

theorem W3_main_arg0 (c : Dev nD) : W3 m c (Proc.devRef .tc main_arg0) = m ((c : Thread nD τ).loc main_arg0) :=
  (W3_in m c 0 rfl).trans <| (W2_in m c 0 rfl).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 1 rfl).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_in m c 2 rfl).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl
theorem W3_main_arg4 (c : Dev nD) : W3 m c (Proc.devRef .tc main_arg4) = m ((c : Thread nD τ).loc main_arg4) :=
  (W3_in m c 2 rfl).trans <| (W2_of_ne m c main_arg4 (by decide)).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The host reshapes as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer as the reshapes leave them, left at `W2`. Its arrays are split out of
    the unscoped buffers and put back at the exit contents; the generator register goes into the invariant and comes
    back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from `W2`, left at `W3` (what the launch reads at the end). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The three items in order. -/
abbrev segs : List (Pipeline.Seg (pcfgs (F := F)) Gen.adm (pdats m) () defs₀ 𝒱₀ L lv) :=
  [ .host (hseg m), .region (reg0 m), .region (reg1 m) ]
/-- The program IS the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds, on every core, the result array at what region 1's grid points wrote back and every
    argument array as launched. -/
theorem run_main : θ_run defs (onTc (τ := τ) (main (F := F))) ⟨m, fun _ => 0, ρ⟩ (fun r => ∀ c : Dev nD,
      r.2.mem ((c.tc : Thread nD τ).loc main_v0) = (dat1 (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v0 (by decide))).trans (W3_arr m c 4),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

end Cert.Kernel.Hand

end
-- ==== Proof.KI.Data0.lean ====
/-
  Region 0 (the first graph-convolution layer) as the pipeline sees it, at the buffer contents `V` the region is
  entered with: each window's block at a grid point; what the carried scratch holds after a point (the product of the
  feature block with the weight matrix, recomputed at the first row tile of each batch element and kept at the other
  row tiles); what the output block holds after a point; the invariant between points; the pipeline's proof data.
-/
import proofs.«122898_g28621662060800_retrytranche2_548_3_alg».proof.Proof.Gen.KernelIdeal.Launch
import proofs.«122898_g28621662060800_retrytranche2_548_3_alg».proof.Proof.Gen.KernelIdeal.Skeleton
import proofs.«122898_g28621662060800_retrytranche2_548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not:
    where it is not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not:
    where it is not fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not:
    where it is not fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, fetched there or not:
    where it is not fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch of the body -/

/-- The condition of the body's `scf.if`: the second grid coordinate is zero (the first row tile of a batch element). -/
abbrev cond0 (i : grid0.Coords) : Prop := (Scalar.cmpi .ne (Scalar.extui (Scalar.cmpi .eq (BitVec.ofNat 32 (i 1).val) 0#32)) 0#32) = 1#1
/-- It holds at the points that are multiples of 25. -/
theorem hcond0 : ∀ t : Fin cfg0.N, cond0 (grid0.coords t) ↔ t.val % 25 = 0 :=
  (by decide +kernel : ∀ t : Fin grid0.N, cond0 (grid0.coords t) ↔ t.val % 25 = 0)

/-! ## What the scratch and the output hold -/

/-- The scratch operand: a whole scoped buffer of the kernel's own. -/
abbrev scM0 : Memref sig .tc .vmem S10000x64 .f32 := Memref.whole cc0_scratch0

/-- What the scratch holds after the point at position `n`: at a multiple of 25 the product of that point's feature
    and weight blocks, elsewhere what the point before left. -/
def scr0 (c : Dev nD) : (n : ℕ) → n < cfg0.N → Vec F S10000x64 .f32
  | 0, hn => k0_pay1 (iblk0 V c 1 ⟨0, hn⟩) (iblk0 V c 2 ⟨0, hn⟩)
  | n + 1, hn =>
    if (n + 1) % 25 = 0 then k0_pay1 (iblk0 V c 1 ⟨n + 1, hn⟩) (iblk0 V c 2 ⟨n + 1, hn⟩)
    else scr0 c n (Nat.lt_of_succ_lt hn)

theorem scr0_A (c : Dev nD) (t : Fin cfg0.N) (h : t.val % 25 = 0) :
    scr0 V c t.val t.isLt = k0_pay1 (iblk0 V c 1 t) (iblk0 V c 2 t) := by
  obtain ⟨n, hn⟩ := t
  cases n with
  | zero => rfl
  | succ n => exact if_pos h

theorem scr0_B (c : Dev nD) (t : Fin cfg0.N) (h : ¬t.val % 25 = 0) :
    scr0 V c t.val t.isLt = scr0 V c (t.val - 1) (Nat.lt_of_le_of_lt (Nat.sub_le _ _) t.isLt) := by
  obtain ⟨n, hn⟩ := t
  cases n with
  | zero => exact absurd (Nat.zero_mod _) h
  | succ n => exact if_neg h

/-- What the output window's staging buffer holds after point `t`. -/
def out0 (c : Dev nD) (t : Fin cfg0.N) : Vec F S1x400x64 .f32 :=
  k0_pay2 (iblk0 V c 0 t) (scr0 V c t.val t.isLt) (iblk0 V c 3 t)

/-! ## The invariant between points -/

/-- The scoped buffers that are neither a staging buffer of this region nor its scratch, each at some contents. -/
def restO0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch singled out as a memref owned at some contents. -/
theorem PhiA0_eq (c : Dev nD) :
    (Pipeline.ΦA spec0 c : sProp 𝕄) = iprop(iprop((∃ d, owns (c : Thread nD τ) scM0 fullShare d) ∗ restO0 c) ∗ (∃ r, prngReg c r)) := by
  unfold Pipeline.ΦA restO0; rw [scopedRest0_eq]; simp only [scM0, owns_whole]; rfl

/-- The invariant before position `n`: before the first point every scoped buffer at anything; afterwards the scratch
    at what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scr0 V c n hn) ∗ restO0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scr0 V c n hn) ∗ restO0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scr0 V c (n - 1) (by omega)) ∗ restO0 c) ∗ (∃ r, prngReg c r)) := by
  cases n with
  | zero => exact absurd rfl hz
  | succ n => rfl

/-! ## The pipeline's proof data -/

/-- The proof data of pipeline 0 on core `c`: the arrays as the region finds them; after the body at a point each
    input's buffer at its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.KI.Body0.lean ====
/-
  The kernel function of region 0 (one graph-convolution layer's row tile) on ANY whole staging memrefs, in the two
  cases of its one conditional. At the first row tile of a batch element (case A) it stores the product of the
  feature block with the weight matrix into the scratch, whole, and reads it back; at the other row tiles (case B)
  it reads the scratch as it finds it. In both cases it then stores, whole, into the output block the product of the
  adjacency row tile with the scratch, plus the bias, through the leaky rectifier. Every access is through the
  whole-buffer rectangle at zero offsets, so a load reads the buffer's contents and a store leaves its payload.
-/
import proofs.«122898_g28621662060800_retrytranche2_548_3_alg».proof.Proof.KI.Data0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a two-axis whole-buffer rectangle, as the constant function. -/
theorem offsets2_zero0 : (![0, 0] : Fin 2 → Nat) = fun _ => 0 := funext fun a => by fin_cases a <;> rfl
/-- The zero offsets of a three-axis whole-buffer rectangle, as the constant function. -/
theorem offsets3_zero0 : (![0, 0, 0] : Fin 3 → Nat) = fun _ => 0 := funext fun a => by fin_cases a <;> rfl

/-- One store through the whole-buffer rectangle at zero offsets covers the buffer. -/
theorem cover_wholeStore0 {Val : EltTy → Type} {S : Shape} {e : EltTy} {off : Fin S.rank → Nat} (h : off = fun _ => 0)
    (inb : ∀ a, off a + S.size a ≤ S.size a) (w : S.Idx → Val e) :
    ∀ y : S.Idx, ∃ p ∈ ([⟨Rect.unit off S.size inb, w⟩] : List (View.Piece Val S e)), y ∈ p.1.set :=
  fun y => ⟨_, List.mem_singleton_self _, View.mem_set_unit_zero h inb y⟩

set_option maxHeartbeats 1000000 in
/-- CASE A (the first row tile of a batch element): from the four inputs at their contents, the output block and the
    scratch at anything, the body runs to the continuation holding the inputs as they were, the scratch at the
    product of the feature block with the weights, and the output block at the layer's row tile computed from that
    product: the scratch is read back through the rectangle it was just stored through, so the load reads the store's
    payload. -/
theorem kernel0_A (c : Dev nD) (E : Set ℕ) (i : grid0.Coords) (arg2 : Memref sig .tc .vmem S1x400x10000 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole)
    (hc : cond0 i)
    (x0 : Vec F S1x400x10000 .f32) (x1 : Vec F S10000x64 .f32) (x2 : Vec F S64x64 .f32) (x3 : Vec F S1x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 (k0_pay1 x1 x2) x3)
            ∗ owns (c : Thread nD τ) arg7 fullShare (k0_pay1 x1 x2)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (cover_wholeStore0 offsets3_zero0 _ _),
      View.canon_unit_zero offsets3_zero0, View.readCov_unit_zero (S := S10000x64) _ offsets2_zero0]
    simp only [View.readAt_eq_ld, harg2.read_unread, harg3.read_unread, harg4.read_unread, harg5.read_unread,
      View.ld_unit_zero (S := S1x400x10000) offsets3_zero0, View.ld_unit_zero (S := S10000x64) offsets2_zero0,
      View.ld_unit_zero (S := S64x64) offsets2_zero0, View.ld_unit_zero (S := S1x64) offsets2_zero0]
  iexists _; isplitr
  swap; · iexact H5
  ipureintro
  sl_unfold_run_names
  rw [View.read_writes_eq_canon _ _ _ (cover_wholeStore0 offsets2_zero0 _ _),
    View.canon_unit_zero offsets2_zero0]
  simp only [View.readAt_eq_ld, harg3.read_unread, harg4.read_unread,
    View.ld_unit_zero (S := S10000x64) offsets2_zero0, View.ld_unit_zero (S := S64x64) offsets2_zero0]

set_option maxHeartbeats 1000000 in
/-- CASE B (any other row tile): the scratch holds `xs`, which the body reads and leaves; the output block ends at the
    layer's row tile computed from `xs`. -/
theorem kernel0_B (c : Dev nD) (E : Set ℕ) (i : grid0.Coords) (arg2 : Memref sig .tc .vmem S1x400x10000 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole)
    (hc : ¬cond0 i)
    (x0 : Vec F S1x400x10000 .f32) (x1 : Vec F S10000x64 .f32) (x2 : Vec F S64x64 .f32) (x3 : Vec F S1x64 .f32)
    (xs : Vec F S10000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 xs x3)
            ∗ owns (c : Thread nD τ) arg7 fullShare xs) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (cover_wholeStore0 offsets3_zero0 _ _),
      View.canon_unit_zero offsets3_zero0]
    simp only [View.readAt_eq_ld, harg2.read_unread, harg5.read_unread, harg7.read_unread,
      View.ld_unit_zero (S := S1x400x10000) offsets3_zero0, View.ld_unit_zero (S := S10000x64) offsets2_zero0,
      View.ld_unit_zero (S := S1x64) offsets2_zero0]
  iexists _; isplitr; · ipureintro; exact harg7.read_unread _
  iexact H5

end Cert.KernelIdeal.Hand

end
-- ==== Proof.KI.Obl0.lean ====
/-
  Region 0: the kernel body meets the pipeline's obligation at every grid point, and the invariant's two ends.
  At a point the four input windows' staging buffers hold their blocks; the invariant hands the body the scratch —
  at anything before the first point, afterwards at what the point before left in it — and takes it back at what
  this point leaves: the product of the feature block with the weights at the first row tile of a batch element,
  unchanged elsewhere. The output window's buffer ends at the layer's row tile computed from the scratch.
-/
import proofs.«122898_g28621662060800_retrytranche2_548_3_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging
    buffer at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the invariant after the point, and each window's buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The inputs' buffers hold their blocks. At a multiple of 25 (the first row tile of a batch
    element) the body recomputes the scratch, so whatever the invariant hands over will do (anything at the first
    point, the previous point's contents later); elsewhere the point is not the first, the invariant hands the
    scratch at what the point before left, and the body leaves it there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  unfold out0
  by_cases h : t.val % 25 = 0
  · rw [scr0_A V c t h]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (kernel0_A c Set.univ (grid0.coords t) _ _ _ _ _ _ _ _ _ _ _ _ ((hcond0 t).mpr h) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernel0_A c Set.univ (grid0.coords t) _ _ _ _ _ _ _ _ _ _ _ _ ((hcond0 t).mpr h) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
  · have hz : t.val ≠ 0 := fun e => h (by rw [e])
    rw [scr0_B V c t h]
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (kernel0_B c Set.univ (grid0.coords t) _ _ _ _ _ _ _ _ _ _ _ _ (fun hh => h ((hcond0 t).mp hh)) (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- After the last point the invariant gives the class invariant back: the scratch's contents are forgotten. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Data1.lean ====
/-
  Region 1 (the second graph-convolution layer) as the pipeline sees it, at the buffer contents `V` the region is
  entered with: each window's block at a grid point; what the carried scratch holds after a point (the product of the
  feature block with the weight matrix, recomputed at the first row tile of each batch element and kept at the other
  row tiles); what the output block holds after a point; the invariant between points; the pipeline's proof data.
-/
import proofs.«122898_g28621662060800_retrytranche2_548_3_alg».proof.Proof.Gen.KernelIdeal.Launch
import proofs.«122898_g28621662060800_retrytranche2_548_3_alg».proof.Proof.Gen.KernelIdeal.Skeleton
import proofs.«122898_g28621662060800_retrytranche2_548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not:
    where it is not fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not:
    where it is not fetched the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not:
    where it is not fetched the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not:
    where it is not fetched the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch of the body -/

/-- The condition of the body's `scf.if`: the second grid coordinate is zero (the first row tile of a batch element). -/
abbrev cond1 (i : grid1.Coords) : Prop := (Scalar.cmpi .ne (Scalar.extui (Scalar.cmpi .eq (BitVec.ofNat 32 (i 1).val) 0#32)) 0#32) = 1#1
/-- It holds at the points that are multiples of 25. -/
theorem hcond1 : ∀ t : Fin cfg1.N, cond1 (grid1.coords t) ↔ t.val % 25 = 0 :=
  (by decide +kernel : ∀ t : Fin grid1.N, cond1 (grid1.coords t) ↔ t.val % 25 = 0)

/-! ## What the scratch and the output hold -/

/-- The scratch operand: a whole scoped buffer of the kernel's own. -/
abbrev scM1 : Memref sig .tc .vmem S10000x64 .f32 := Memref.whole cc1_scratch0

/-- What the scratch holds after the point at position `n`: at a multiple of 25 the product of that point's feature
    and weight blocks, elsewhere what the point before left. -/
def scr1 (c : Dev nD) : (n : ℕ) → n < cfg1.N → Vec F S10000x64 .f32
  | 0, hn => k1_pay1 (iblk1 V c 1 ⟨0, hn⟩) (iblk1 V c 2 ⟨0, hn⟩)
  | n + 1, hn =>
    if (n + 1) % 25 = 0 then k1_pay1 (iblk1 V c 1 ⟨n + 1, hn⟩) (iblk1 V c 2 ⟨n + 1, hn⟩)
    else scr1 c n (Nat.lt_of_succ_lt hn)

theorem scr1_A (c : Dev nD) (t : Fin cfg1.N) (h : t.val % 25 = 0) :
    scr1 V c t.val t.isLt = k1_pay1 (iblk1 V c 1 t) (iblk1 V c 2 t) := by
  obtain ⟨n, hn⟩ := t
  cases n with
  | zero => rfl
  | succ n => exact if_pos h

theorem scr1_B (c : Dev nD) (t : Fin cfg1.N) (h : ¬t.val % 25 = 0) :
    scr1 V c t.val t.isLt = scr1 V c (t.val - 1) (Nat.lt_of_le_of_lt (Nat.sub_le _ _) t.isLt) := by
  obtain ⟨n, hn⟩ := t
  cases n with
  | zero => exact absurd (Nat.zero_mod _) h
  | succ n => exact if_neg h

/-- What the output window's staging buffer holds after point `t`. -/
def out1 (c : Dev nD) (t : Fin cfg1.N) : Vec F S1x400x64 .f32 :=
  k1_pay2 (iblk1 V c 0 t) (scr1 V c t.val t.isLt) (iblk1 V c 3 t)

/-! ## The invariant between points -/

/-- The scoped buffers that are no staging buffer of this region: the others each at some contents, and last the
    region's scratch as `S` describes it. -/
def restO1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ S)

/-- The class invariant with the scratch singled out as a memref owned at some contents. -/
theorem PhiA1_eq (c : Dev nD) :
    (Pipeline.ΦA spec1 c : sProp 𝕄) = iprop(iprop(restO1 c iprop(∃ d, owns (c : Thread nD τ) scM1 fullShare d)) ∗ (∃ r, prngReg c r)) := by
  unfold Pipeline.ΦA restO1; rw [scopedRest1_eq]; simp only [scM1, owns_whole]; rfl

/-- The invariant before position `n`: before the first point every scoped buffer at anything; afterwards the scratch
    at what the point before left in it, the other scoped buffers at anything, the generator register at some state. -/
def PhiS1 (c : Dev nD) : (n : ℕ) → n ≤ cfg1.N → sProp 𝕄
  | 0, _ => Pipeline.ΦA spec1 c
  | n + 1, hn => iprop(iprop(restO1 c (owns (c : Thread nD τ) scM1 fullShare (scr1 V c n hn))) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(restO1 c (owns (c : Thread nD τ) scM1 fullShare (scr1 V c n hn))) ∗ (∃ r, prngReg c r)) := rfl

theorem PhiS1_pos (c : Dev nD) (n : ℕ) (h : n ≤ cfg1.N) (hz : n ≠ 0) :
    PhiS1 V c n h = iprop(iprop(restO1 c (owns (c : Thread nD τ) scM1 fullShare (scr1 V c (n - 1) (by omega)))) ∗ (∃ r, prngReg c r)) := by
  cases n with
  | zero => exact absurd rfl hz
  | succ n => rfl

/-! ## The pipeline's proof data -/

/-- The proof data of pipeline 1 on core `c`: the arrays as the region finds them; after the body at a point each
    input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KI.Body1.lean ====
/-
  The second layer's kernel function on whole staging buffers: its triple in the two cases of its one conditional.
  At the first row tile of a batch element the function stores the product of the feature block and the weight
  matrix into the carried scratch, reads it back, and stores the adjacency tile times that product plus the bias
  into the output tile; at the other row tiles it reads the scratch as the point before left it.
-/
import proofs.«122898_g28621662060800_retrytranche2_548_3_alg».proof.Proof.KI.Data1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores -/

private theorem zeros2 : (![0, 0] : Fin 2 → ℕ) = fun _ => 0 := by funext a; fin_cases a <;> rfl
private theorem zeros3 : (![0, 0, 0] : Fin 3 → ℕ) = fun _ => 0 := by funext a; fin_cases a <;> rfl

/-- A load of a whole buffer through the full rectangle at zero offsets reads the buffer's contents. -/
private theorem readAt_whole_unit {S : Shape} {e : EltTy} {sp : Space} (m : Memref sig .tc sp S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero h inb X

/-- One store through the full rectangle at zero offsets leaves its payload, whatever the buffer held. -/
private theorem read_store_whole_unit {S : Shape} {e : EltTy} {sp : Space} (m : Memref sig .tc sp S e)
    {off : Fin S.rank → ℕ} (h : off = fun _ => 0) (inb : ∀ a, off a + S.size a ≤ S.size a)
    (f : m.view.ty.Contents (Elt F)) (w : S.Idx → Elt F e) :
    View.read (Elt F) m.view (m.view.writes (Elt F) f [⟨Rect.unit off S.size inb, w⟩]) = w := by
  rw [View.read_writes_eq_canon _ _ _ (fun y => ⟨_, List.mem_singleton_self _, View.mem_set_unit_zero h inb y⟩)]
  exact View.canon_unit_zero h inb w

set_option maxHeartbeats 1000000 in
/-- Away from the first row tile: the scratch is read as the point before left it and handed back untouched; the
    output tile is left at the adjacency tile times the scratch plus the bias. -/
theorem body1_B (c : Dev nD) (E : Set ℕ) (i : grid1.Coords)
    (arg2 : Memref sig .tc .vmem S1x400x10000 .f32) (harg2 : arg2.IsWhole)
    (arg3 : Memref sig .tc .vmem S1x10000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1x400x64 .f32) (harg6 : arg6.IsWhole)
    (arg7 : Memref sig .tc .vmem S10000x64 .f32) (harg7 : arg7.IsWhole)
    (hc : ¬cond1 i)
    (x0 : Vec F S1x400x10000 .f32) (x1 : Vec F S1x10000x64 .f32) (x2 : Vec F S64x64 .f32) (x3 : Vec F S1x64 .f32)
    (xs : Vec F S10000x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 xs x3) ∗ owns (c : Thread nD τ) arg7 fullShare xs) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    rw [read_store_whole_unit arg6 zeros3, readAt_whole_unit arg2 harg2 zeros3, readAt_whole_unit arg7 harg7 zeros2,
      readAt_whole_unit arg5 harg5 zeros2]
  iexists _; isplitr; · ipureintro; exact harg7.read_unread _
  iexact H7

set_option maxHeartbeats 1000000 in
/-- At the first row tile of a batch element: the scratch, whatever it held, is stored whole at the product of the
    feature block and the weight matrix and read back; the output tile is left at the adjacency tile times that
    product plus the bias. -/
theorem body1_A (c : Dev nD) (E : Set ℕ) (i : grid1.Coords)
    (arg2 : Memref sig .tc .vmem S1x400x10000 .f32) (harg2 : arg2.IsWhole)
    (arg3 : Memref sig .tc .vmem S1x10000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1x400x64 .f32) (harg6 : arg6.IsWhole)
    (arg7 : Memref sig .tc .vmem S10000x64 .f32) (harg7 : arg7.IsWhole)
    (hc : cond1 i)
    (x0 : Vec F S1x400x10000 .f32) (x1 : Vec F S1x10000x64 .f32) (x2 : Vec F S64x64 .f32) (x3 : Vec F S1x64 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 (k1_pay1 x1 x2) x3) ∗ owns (c : Thread nD τ) arg7 fullShare (k1_pay1 x1 x2)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  obtain rfl := harg2.eq_unread hf0; obtain rfl := harg3.eq_unread hf1; obtain rfl := harg4.eq_unread hf2
  obtain rfl := harg5.eq_unread hf3
  sl_exec (disch := exact hc)
  sl_unfold_run_names
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    rw [read_store_whole_unit arg6 zeros3, View.readCov_cons_toLoadRect, readAt_whole_unit arg2 harg2 zeros3,
      readAt_whole_unit arg3 harg3 zeros3, readAt_whole_unit arg4 harg4 zeros2, readAt_whole_unit arg5 harg5 zeros2]
  iexists _; isplitr
  swap; · iexact H7
  ipureintro
  rw [read_store_whole_unit arg7 zeros2, readAt_whole_unit arg3 harg3 zeros3, readAt_whole_unit arg4 harg4 zeros2]

end Cert.KernelIdeal.Hand

end
-- ==== Proof.KI.Obl1.lean ====
/-
  Region 1: the kernel body meets the pipeline's obligation at every grid point, and the invariant's two ends.
-/
import proofs.«122898_g28621662060800_retrytranche2_548_3_alg».proof.Proof.KI.Data1
import proofs.«122898_g28621662060800_retrytranche2_548_3_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant before the point, what the core owes, and each window's
    current staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the invariant after the point, the same debt, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point. The inputs' buffers hold their blocks. At a multiple of 25 (the first row tile of a batch
    element) the scratch is handed over at some contents — anything at the very first point, what the point before left
    afterwards — and comes back at the product of this point's feature and weight blocks; elsewhere it is handed over at
    what the point before left and comes back unchanged. Either way the output tile is left at the adjacency tile
    times the scratch plus the bias; the other scoped buffers, the generator register and the debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  unfold out1
  by_cases h : t.val % 25 = 0
  · rw [scr1_A V c t h]
    by_cases hz : t.val = 0
    · rw [PhiS1_castSucc V c t, PhiS1_zero V c _ _ hz, PhiA1_eq]
      unfold restO1
      iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
      iapply (body1_A c Set.univ (grid1.coords t) _ _ _ _ _ _ _ _ _ _ _ _ ((hcond1 t).mpr h) (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr0 Hr1 Hr2 Hr3 Hr4 Hr5 Hr6 Hr7 HS Hg]
      · isplitl [Hr0 Hr1 Hr2 Hr3 Hr4 Hr5 Hr6 Hr7 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          iexact HS
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      unfold restO1
      iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
      iapply (body1_A c Set.univ (grid1.coords t) _ _ _ _ _ _ _ _ _ _ _ _ ((hcond1 t).mpr h) (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [Hr0 Hr1 Hr2 Hr3 Hr4 Hr5 Hr6 Hr7 HS Hg]
      · isplitl [Hr0 Hr1 Hr2 Hr3 Hr4 Hr5 Hr6 Hr7 HS]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := fun e => h (by rw [e])
    rw [scr1_B V c t h, PhiS1_castSucc V c t, PhiS1_pos V c _ _ hz]
    unfold restO1
    iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩⟩
    iapply (body1_B c Set.univ (grid1.coords t) _ _ _ _ _ _ _ _ _ _ _ _ (fun hc => h ((hcond1 t).mp hc)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hr0 Hr1 Hr2 Hr3 Hr4 Hr5 Hr6 Hr7 HS Hg]
    · isplitl [Hr0 Hr1 Hr2 Hr3 Hr4 Hr5 Hr6 Hr7 HS]
      · isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        isplitl [Hr7]; · iexact Hr7
        iexact HS
      iexact Hg
    isplitl [Ho]; · iexact Ho
    isplitl [H0]; · iexact H0
    isplitl [H1]; · iexact H1
    isplitl [H2]; · iexact H2
    isplitl [H3]; · iexact H3
    iexact H4

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hN : cfg1.N = 50 := N_1
  have ht : (Fin.last cfg1.N).val ≠ 0 := by rw [Fin.val_last]; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold restO1
  iintro ⟨⟨Hr0, Hr1, Hr2, Hr3, Hr4, Hr5, Hr6, Hr7, HS⟩, Hg⟩
  isplitl [Hr0 Hr1 Hr2 Hr3 Hr4 Hr5 Hr6 Hr7 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexists _; iexact HS
  iexact Hg

end Cert.KernelIdeal.Hand

end
-- ==== Proof.KI.Run.lean ====
/-
  The whole program as a sequence of three items — two reshapes of the bias vectors on the host, then the two
  graph-convolution regions — and what every unscoped buffer holds between them: the launch memory; after the reshapes;
  after region 0 (its output array at what its grid points wrote back, everything else as before); after region 1
  likewise. Each region is entered from every unscoped buffer at the contents before it, beside the generator
  register and the core owing nothing, and left at the contents after it. The arguments are read back through the
  chain to the launch memory: no item writes one.
-/
import proofs.«122898_g28621662060800_retrytranche2_548_3_alg».proof.Proof.KI.Obl0
import proofs.«122898_g28621662060800_retrytranche2_548_3_alg».proof.Proof.KI.Obl1
import proofs.«122898_g28621662060800_retrytranche2_548_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- After the host reshapes, read at the TensorCore's references: what region 0 is entered with. -/
abbrev E1 : (c : Dev nD) → (b : Ref sig .tc) → Buf (Elt F) ((c : Thread nD τ).loc b) := fun c b => Gen.V1 m c b

/-- After region 0: its arrays at what the pipeline leaves (the inputs as entered, the output's write-backs folded),
    every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- The same read at the TensorCore's references: what region 1 is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1, likewise. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## What a region's input window leaves in its array: the array as entered -/

theorem W2_in (c : Dev nD) (w : Fin cfg0.W) (hw : (cfg0.win w).isOut = false) :
    W2 m c (Proc.devRef .tc (Pipeline.arrRef spec0 w)) = Gen.V1 m c (Proc.devRef .tc (Pipeline.arrRef spec0 w)) :=
  (W2_arr m c w).trans (((dat0 (E1 m) c).arrAt_in w hw _).trans (A_eq0 (E1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (E2 m) c).arrAt_in w hw _).trans (A_eq1 (E2 m) c w))

/-! ## The arguments end as launched -/

theorem W3_main_arg0 (c : Dev nD) : W3 m c (Proc.devRef .tc main_arg0) = m ((c : Thread nD τ).loc main_arg0) :=
  (W3_in m c 0 rfl).trans <| (W2_in m c 0 rfl).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 1 rfl).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_in m c 2 rfl).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl
theorem W3_main_arg4 (c : Dev nD) : W3 m c (Proc.devRef .tc main_arg4) = m ((c : Thread nD τ).loc main_arg4) :=
  (W3_in m c 2 rfl).trans <| (W2_of_ne m c main_arg4 (by decide)).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The host reshapes as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer as the reshapes leave them, left at `W2`. Its arrays are split out of
    the unscoped buffers and put back at the exit contents; the generator register goes into the invariant and comes
    back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from `W2`, left at `W3` (what the launch reads at the end). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The three items in order. -/
abbrev segs : List (Pipeline.Seg (pcfgs (F := F)) Gen.adm (pdats m) () defs₀ 𝒱₀ L lv) :=
  [ .host (hseg m), .region (reg0 m), .region (reg1 m) ]
/-- The program IS the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds, on every core, the result array at what region 1's grid points wrote back and every
    argument array as launched. -/
theorem run_main : θ_run defs (onTc (τ := τ) (main (F := F))) ⟨m, fun _ => 0, ρ⟩ (fun r => ∀ c : Dev nD,
      r.2.mem ((c.tc : Thread nD τ).loc main_v0) = (dat1 (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v0 (by decide))).trans (W3_arr m c 4),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

end Cert.KernelIdeal.Hand

end
-- ==== Proof.Spec.lean ====
/-
  The function both programs compute, on the extended reals, index by index. For one batch element with adjacency
  matrix `adj`, a graph-convolution layer sends a feature matrix `x` to `adj · (x · w) + bias` (the bias added to
  every row); the first layer is followed by the leaky rectifier `z ↦ z` if `z ≥ 0`, else `c · z` with `c` the
  binary32 number nearest one fifth; the result stacks, over the batch, the second layer applied to the first layer's
  output, both layers using that batch element's adjacency matrix. No algebraic law relates the two programs beyond
  this common reading: both form `x · w` first and multiply by the adjacency matrix afterwards, so no finiteness of
  the entries is needed.
-/
import Idealize.ShloMosaic.PureOps.Ideal
import Idealize.ShloMosaic.Lib.ValueIdx

noncomputable section

open scoped BigOperators

namespace Cert.Spec

open Idealize.ShloMosaic Idealize.ShloMosaic.ValueIdx

/-- `(x · w)(k, j) = ∑ l, x(k, l) · w(l, j)`: features times weights. -/
def support (x : Fin 10000 → Fin 64 → EReal) (w : Fin 64 → Fin 64 → EReal) (k : Fin 10000) (j : Fin 64) : EReal :=
  ∑ l : Fin 64, x k l * w l j

/-- `(adj · s)(r, j) + bias(j)`: aggregation over the neighbours, then the bias. -/
def conv (adj : Fin 10000 → Fin 10000 → EReal) (s : Fin 10000 → Fin 64 → EReal) (bias : Fin 64 → EReal)
    (r : Fin 10000) (j : Fin 64) : EReal :=
  (∑ k : Fin 10000, adj r k * s k j) + bias j

/-- The leaky rectifier with slope the binary32 number nearest one fifth, as both programs spell it: a comparison
    with zero selecting between the value and its multiple. -/
def leaky (z : EReal) : EReal :=
  Scalar.select (FloatOps.cmpf (F := Ideal) (φ := .f32) .oge z (Ideal.ofBits .f32 0x00000000#32)) z
    (Ideal.ofBits .f32 0x3E4CCCCD#32 * z)

/-- The first layer for one batch element. -/
def layer1 (adj : Fin 10000 → Fin 10000 → EReal) (x : Fin 10000 → Fin 64 → EReal) (w : Fin 64 → Fin 64 → EReal)
    (bias : Fin 64 → EReal) (r : Fin 10000) (j : Fin 64) : EReal :=
  leaky (conv adj (support x w) bias r j)

/-- The second layer for one batch element. -/
def layer2 (adj : Fin 10000 → Fin 10000 → EReal) (x : Fin 10000 → Fin 64 → EReal) (w : Fin 64 → Fin 64 → EReal)
    (bias : Fin 64 → EReal) (r : Fin 10000) (j : Fin 64) : EReal :=
  conv adj (support x w) bias r j

/-- The whole network at batch element `b`, row `r`, column `j`. -/
def net (adj : Fin 2 → Fin 10000 → Fin 10000 → EReal) (x : Fin 10000 → Fin 64 → EReal)
    (w1 : Fin 64 → Fin 64 → EReal) (b1 : Fin 64 → EReal) (w2 : Fin 64 → Fin 64 → EReal) (b2 : Fin 64 → EReal)
    (b : Fin 2) (r : Fin 10000) (j : Fin 64) : EReal :=
  layer2 (adj b) (layer1 (adj b) x w1 b1) w2 b2 r j

/-! ## Arrays as functions of coordinates -/

/-- The batch of adjacency matrices, by batch element, row and column. -/
def adjOf (a : (⟨3, ![2, 10000, 10000]⟩ : Shape).Idx → EReal) (b : Fin 2) (r k : Fin 10000) : EReal := a (ix3 b r k)
/-- A matrix, by row and column. -/
def matOf {n0 n1 : Nat} (a : (⟨2, ![n0, n1]⟩ : Shape).Idx → EReal) (p : Fin n0) (q : Fin n1) : EReal := a (ix2 p q)
/-- A one-row matrix, by column. -/
def rowOf (a : (⟨2, ![1, 64]⟩ : Shape).Idx → EReal) (j : Fin 64) : EReal := a (ix2 0 j)
/-- A vector, by position. -/
def vecOf (a : (⟨1, ![64]⟩ : Shape).Idx → EReal) (j : Fin 64) : EReal := a (ix1 j)
/-- A batch of feature matrices, by batch element, row and column. -/
def batchOf (a : (⟨3, ![2, 10000, 64]⟩ : Shape).Idx → EReal) (b : Fin 2) (r : Fin 10000) (j : Fin 64) : EReal := a (ix3 b r j)

end Cert.Spec

end
-- ==== Proof.KI.Target.lean ====
/-
  What each region leaves in its output array, as one function of the arrays the region is entered with: the first
  region the first layer of every batch element, the second region the second layer.
-/
import proofs.«122898_g28621662060800_retrytranche2_548_3_alg».proof.Proof.KI.Data0
import proofs.«122898_g28621662060800_retrytranche2_548_3_alg».proof.Proof.KI.Data1
import proofs.«122898_g28621662060800_retrytranche2_548_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- After region 0: the first layer, batch element by batch element. -/
def G0 (c : Dev nD) : Buf (Elt Ideal) ((c : Thread nD τ).loc main_call0_v2) :=
  fun i => Spec.layer1 (Spec.adjOf (V c main_arg0) (i 0)) (Spec.matOf (V c main_arg1)) (Spec.matOf (V c main_arg2))
    (Spec.rowOf (V c main_call0_v0)) (i 1) (i 2)

/-- After region 1: the second layer of the features region 0 left, batch element by batch element. -/
def G1 (c : Dev nD) : Buf (Elt Ideal) ((c : Thread nD τ).loc main_v0) :=
  fun i => Spec.layer2 (Spec.adjOf (V c main_arg0) (i 0)) (Spec.batchOf (V c main_call0_v2) (i 0)) (Spec.matOf (V c main_arg4))
    (Spec.rowOf (V c main_call0_v1)) (i 1) (i 2)

end Cert.KernelIdeal.Hand

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.KI.Pay.lean ====
/-
  The kernels' arithmetic at one entry, on the extended reals: the feature-times-weight product stored into the scratch,
  and the aggregation over a row tile of the adjacency matrix with the bias (and, in the first layer, the rectifier).
-/
import proofs.«122898_g28621662060800_retrytranche2_548_3_alg».proof.Proof.Gen.KernelIdeal.Skeleton
import proofs.«122898_g28621662060800_retrytranche2_548_3_alg».proof.Proof.Spec
import proofs.«122898_g28621662060800_retrytranche2_548_3_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The two matrix products' index maps

Both products contract the left operand's second axis against the right operand's first: at output entry `(p, q)` and
contraction position `t` the left operand is read at `(p, t)` and the right one at `(t, q)`. -/

/-- Features times weights: the left index keeps the output row. -/
theorem support_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- Features times weights: the left index's column is the contraction position. -/
theorem support_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Features times weights: the right index's row is the contraction position. -/
theorem support_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Features times weights: the right index keeps the output column. -/
theorem support_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Adjacency tile times scratch: the left index keeps the output row. -/
theorem aggregate_lhs_row (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
/-- Adjacency tile times scratch: the left index's column is the contraction position. -/
theorem aggregate_lhs_col (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- Adjacency tile times scratch: the right index's row is the contraction position. -/
theorem aggregate_rhs_row (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
/-- Adjacency tile times scratch: the right index keeps the output column. -/
theorem aggregate_rhs_col (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-! ## The two matrix products at an entry -/

/-- A [10000, 64] by [64, 64] product into zero, at `(k, j)`: row `k` of the left against column `j` of the right. -/
theorem support_matmul_apply {φ₁ φ₂ : FTy} (L : FVec Ideal S10000x64 φ₁) (R : FVec Ideal S64x64 φ₂) (k : Fin 10000) (j : Fin 64) :
    matmul dot_S10000x64_S64x64_S10000x64_1_0_0_1_n_n none L R (constant S10000x64 .f32 0x00000000#32) (ix2 k j)
      = ∑ l : Fin 64, L (ix2 k l) * R (ix2 l j) :=
  Cert.DenseLayer.matmul_rows_cols dot_S10000x64_S64x64_S10000x64_1_0_0_1_n_n rfl rfl
    support_lhs_row support_lhs_col support_rhs_row support_rhs_col none L R k j

/-- A [400, 10000] by [10000, 64] product into zero, at `(r, j)`: row `r` of the left against column `j` of the right. -/
theorem aggregate_matmul_apply {φ₁ φ₂ : FTy} (L : FVec Ideal S400x10000 φ₁) (R : FVec Ideal S10000x64 φ₂) (r : Fin 400) (j : Fin 64) :
    matmul dot_S400x10000_S10000x64_S400x64_1_0_0_1_n_n none L R (constant S400x64 .f32 0x00000000#32) (ix2 r j)
      = ∑ k : Fin 10000, L (ix2 r k) * R (ix2 k j) :=
  Cert.DenseLayer.matmul_rows_cols dot_S400x10000_S10000x64_S400x64_1_0_0_1_n_n rfl rfl
    aggregate_lhs_row aggregate_lhs_col aggregate_rhs_row aggregate_rhs_col none L R r j

/-! ## The aggregation with the bias, before the rectifier -/

/-- Row `r` of the adjacency tile against column `j` of the scratch, plus the bias at `j`: the tile's leading unit axis is
    dropped, the change of format is the identity on the extended reals, and the one bias row is read on every row. -/
theorem aggregate_bias_apply (a : Vec Ideal S1x400x10000 .f32) (s : Vec Ideal S10000x64 .f32) (bias : Vec Ideal S1x64 .f32)
    (r : Fin 400) (j : Fin 64) :
    addf (F := Ideal) (matmul dot_S400x10000_S10000x64_S400x64_1_0_0_1_n_n none
            (truncf .bf16 (shapeCast S400x10000 a shapeCasts_S1x400x10000_S400x10000 : FVec Ideal S400x10000 .f32) bitsLt_bf16_f32)
            (truncf .bf16 (s : FVec Ideal S10000x64 .f32) bitsLt_bf16_f32) (constant S400x64 .f32 0x00000000#32))
         (broadcastTo S400x64 (shapeCast S1x64 bias shapeCasts_S1x64_S1x64 : FVec Ideal S1x64 .f32) broadcasts_S1x64_S400x64)
         (ix2 r j)
      = (∑ k : Fin 10000, a (ix3 (0 : Fin 1) r k) * s (ix2 k j)) + bias (ix2 (0 : Fin 1) j) := by
  refine congrArg₂ (· + ·) ?_ ?_
  · refine (aggregate_matmul_apply _ _ r j).trans ?_
    refine Finset.sum_congr rfl fun k _ => ?_
    exact congrArg (· * s (ix2 k j)) (shapeCast_1ab_ab_apply a shapeCasts_S1x400x10000_S400x10000 r k)
  · refine (broadcastTo_1b_ab_apply _ broadcasts_S1x64_S400x64 r j).trans ?_
    exact congrFun (shapeCast_self bias shapeCasts_S1x64_S1x64) (ix2 (0 : Fin 1) j)

/-! ## The four payloads -/

/-- Region 0's scratch payload at row `k`, column `j`: the features' row `k` against the weights' column `j`. -/
theorem pay1_0_apply (x : Vec Ideal S10000x64 .f32) (w : Vec Ideal S64x64 .f32) (k : Fin 10000) (j : Fin 64) :
    k0_pay1 (F := Ideal) x w (ix2 k j) = ∑ l : Fin 64, x (ix2 k l) * w (ix2 l j) := by
  unfold k0_pay1
  refine (congrFun (shapeCast_self _ shapeCasts_S10000x64_S10000x64) (ix2 k j)).trans ?_
  exact support_matmul_apply x w k j

/-- Region 0's output payload at row `r` of the tile, column `j`. -/
theorem pay2_0_apply (a : Vec Ideal S1x400x10000 .f32) (s : Vec Ideal S10000x64 .f32) (bias : Vec Ideal S1x64 .f32)
    (r : Fin 400) (j : Fin 64) :
    k0_pay2 (F := Ideal) a s bias (ix3 (0 : Fin 1) r j)
      = Spec.leaky ((∑ k : Fin 10000, a (ix3 (0 : Fin 1) r k) * s (ix2 k j)) + bias (ix2 (0 : Fin 1) j)) := by
  unfold k0_pay2
  refine (shapeCast_ab_1ab_apply _ shapeCasts_S400x64_S1x400x64 (0 : Fin 1) r j).trans ?_
  exact congrArg Spec.leaky (aggregate_bias_apply a s bias r j)

/-- Region 1's scratch payload at row `k`, column `j`. -/
theorem pay1_1_apply (x : Vec Ideal S1x10000x64 .f32) (w : Vec Ideal S64x64 .f32) (k : Fin 10000) (j : Fin 64) :
    k1_pay1 (F := Ideal) x w (ix2 k j) = ∑ l : Fin 64, x (ix3 (0 : Fin 1) k l) * w (ix2 l j) := by
  unfold k1_pay1
  refine (congrFun (shapeCast_self _ shapeCasts_S10000x64_S10000x64) (ix2 k j)).trans ?_
  refine (support_matmul_apply _ w k j).trans ?_
  refine Finset.sum_congr rfl fun l _ => ?_
  exact congrArg (· * w (ix2 l j)) (shapeCast_1ab_ab_apply x shapeCasts_S1x10000x64_S10000x64 k l)

/-- Region 1's output payload at row `r` of the tile, column `j`. -/
theorem pay2_1_apply (a : Vec Ideal S1x400x10000 .f32) (s : Vec Ideal S10000x64 .f32) (bias : Vec Ideal S1x64 .f32)
    (r : Fin 400) (j : Fin 64) :
    k1_pay2 (F := Ideal) a s bias (ix3 (0 : Fin 1) r j)
      = (∑ k : Fin 10000, a (ix3 (0 : Fin 1) r k) * s (ix2 k j)) + bias (ix2 (0 : Fin 1) j) := by
  unfold k1_pay2
  refine (shapeCast_ab_1ab_apply _ shapeCasts_S400x64_S1x400x64 (0 : Fin 1) r j).trans ?_
  exact aggregate_bias_apply a s bias r j

end Cert.KernelIdeal.Hand

end
-- ==== Proof.KI.Blocks0.lean ====
/-
  Region 0: where each window's block at a grid point sits in its array. The grid point `t` has coordinates
  (t / 25, t % 25): batch element and row tile. The adjacency window's block is rows (t % 25) * 400 … + 399 of batch
  element t / 25, all columns; the output window's block is the same rows of the same batch element; the features, the
  weights and the bias are each one block, the whole array, at every point.
-/
import proofs.«122898_g28621662060800_retrytranche2_548_3_alg».proof.Proof.KI.Data0
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

variable (V : (c : Dev nD) → (b : Ref sig .tc) → Buf (Elt F) ((c : Thread nD τ).loc b))

/-- The printed index maps, decided once over the grid: the adjacency and the output windows sit at block
    (t / 25, t % 25, 0), the other three windows at block zero. -/
theorem idx0 : ∀ t : Fin cfg0.N,
    win0_0.index t (0 : Fin 3) = t.val / 25 ∧ win0_0.index t (1 : Fin 3) = t.val % 25 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 25 ∧ win0_4.index t (1 : Fin 3) = t.val % 25 ∧ win0_4.index t (2 : Fin 3) = 0 :=
  (by decide +kernel : ∀ t : Fin grid0.N, _)

/-- The adjacency block at point `t`, row `r` of the tile, column `k`: batch element `t / 25`, row
    `(t % 25) * 400 + r`, column `k` of the adjacency batch. -/
theorem adj_block (c : Dev nD) (t : Fin cfg0.N) (r : Fin 400) (k : Fin 10000) (b : Fin 2) (q : Fin 10000)
    (hb : b.val = t.val / 25) (hq : q.val = (t.val % 25) * 400 + r.val) :
    (iblk0 V c 0 t : Vec F S1x400x10000 .f32) (ix3 (0 : Fin 1) r k)
      = (V c main_arg0 : S2x10000x10000.Idx → Elt F .f32) (ix3 b q k) := by
  obtain ⟨e0, e1, e2, -⟩ := idx0 t
  unfold iblk0
  rw [View.read_apply]
  show V c main_arg0 (((cfg0.win 0).blk t).view.emb (ix3 (0 : Fin 1) r k)) = V c main_arg0 (ix3 b q k)
  refine congrArg (V c main_arg0) ?_
  funext a
  apply Fin.ext
  match a with
  | ⟨0, _⟩ => show win0_0.index t (0 : Fin 3) * 1 + 1 * (0 : Fin 1).val = b.val; rw [e0, hb]; simp only [Fin.val_zero]; omega
  | ⟨1, _⟩ => show win0_0.index t (1 : Fin 3) * 400 + 1 * r.val = q.val; rw [e1, hq]; omega
  | ⟨2, _⟩ => show win0_0.index t (2 : Fin 3) * 10000 + 1 * k.val = k.val; rw [e2]; omega

/-- The feature block at any point is the feature matrix. -/
theorem feat_block (c : Dev nD) (t : Fin cfg0.N) (k : Fin 10000) (l : Fin 64) :
    (iblk0 V c 1 t : Vec F S10000x64 .f32) (ix2 k l) = (V c main_arg1 : S10000x64.Idx → Elt F .f32) (ix2 k l) := by
  obtain ⟨-, -, -, e0, e1, -⟩ := idx0 t
  unfold iblk0
  rw [View.read_apply]
  show V c main_arg1 (((cfg0.win 1).blk t).view.emb (ix2 k l)) = V c main_arg1 (ix2 k l)
  refine congrArg (V c main_arg1) ?_
  funext a
  apply Fin.ext
  match a with
  | ⟨0, _⟩ => show win0_1.index t (0 : Fin 2) * 10000 + 1 * k.val = k.val; rw [e0]; omega
  | ⟨1, _⟩ => show win0_1.index t (1 : Fin 2) * 64 + 1 * l.val = l.val; rw [e1]; omega

/-- The weight block at any point is the weight matrix. -/
theorem weight_block (c : Dev nD) (t : Fin cfg0.N) (l : Fin 64) (j : Fin 64) :
    (iblk0 V c 2 t : Vec F S64x64 .f32) (ix2 l j) = (V c main_arg2 : S64x64.Idx → Elt F .f32) (ix2 l j) := by
  obtain ⟨-, -, -, -, -, e0, e1, -⟩ := idx0 t
  unfold iblk0
  rw [View.read_apply]
  show V c main_arg2 (((cfg0.win 2).blk t).view.emb (ix2 l j)) = V c main_arg2 (ix2 l j)
  refine congrArg (V c main_arg2) ?_
  funext a
  apply Fin.ext
  match a with
  | ⟨0, _⟩ => show win0_2.index t (0 : Fin 2) * 64 + 1 * l.val = l.val; rw [e0]; omega
  | ⟨1, _⟩ => show win0_2.index t (1 : Fin 2) * 64 + 1 * j.val = j.val; rw [e1]; omega

/-- The bias block at any point is the bias row. -/
theorem bias_block (c : Dev nD) (t : Fin cfg0.N) (j : Fin 64) :
    (iblk0 V c 3 t : Vec F S1x64 .f32) (ix2 (0 : Fin 1) j) = (V c main_call0_v0 : S1x64.Idx → Elt F .f32) (ix2 (0 : Fin 1) j) := by
  obtain ⟨-, -, -, -, -, -, -, e0, e1, -⟩ := idx0 t
  unfold iblk0
  rw [View.read_apply]
  show V c main_call0_v0 (((cfg0.win 3).blk t).view.emb (ix2 (0 : Fin 1) j)) = V c main_call0_v0 (ix2 (0 : Fin 1) j)
  refine congrArg (V c main_call0_v0) ?_
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 64 + 1 * j.val = j.val; rw [e1]; omega

end Cert.KernelIdeal.Hand

end
-- ==== Proof.KI.Layer0.lean ====
/-
  Region 0, entry by entry: what the carried scratch holds after a grid point (the feature-times-weight product, the
  same at every point, since every point's feature and weight blocks are the whole matrices), and what the output block
  holds after a point (the first layer of the point's batch element at the rows of the point's row tile).
-/
import proofs.«122898_g28621662060800_retrytranche2_548_3_alg».proof.Proof.KI.Blocks0
import proofs.«122898_g28621662060800_retrytranche2_548_3_alg».proof.Proof.KI.Pay
import proofs.«122898_g28621662060800_retrytranche2_548_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The scratch payload of a point's feature and weight blocks, at row `k`, column `j`: the feature-times-weight
    product there. -/
theorem support_at (c : Dev nD) (t : Fin cfg0.N) (k : Fin 10000) (j : Fin 64) :
    k0_pay1 (F := Ideal) (iblk0 V c 1 t) (iblk0 V c 2 t) (ix2 k j)
      = Spec.support (Spec.matOf (V c main_arg1)) (Spec.matOf (V c main_arg2)) k j := by
  refine (pay1_0_apply (iblk0 V c 1 t) (iblk0 V c 2 t) k j).trans ?_
  unfold Spec.support
  refine Finset.sum_congr rfl fun l _ => ?_
  rw [feat_block V c t k l, weight_block V c t l j]
  rfl

/-- After every point the scratch holds the feature-times-weight product: recomputed at the first row tile of a batch
    element, kept at the others. By induction on the point. -/
theorem scr0_apply (c : Dev nD) : ∀ (n : ℕ) (hn : n < cfg0.N) (k : Fin 10000) (j : Fin 64),
    scr0 V c n hn (ix2 k j) = Spec.support (Spec.matOf (V c main_arg1)) (Spec.matOf (V c main_arg2)) k j
  | 0, hn, k, j => support_at V c ⟨0, hn⟩ k j
  | n + 1, hn, k, j => by
    by_cases h : (n + 1) % 25 = 0
    · rw [show scr0 V c (n + 1) hn = k0_pay1 (iblk0 V c 1 ⟨n + 1, hn⟩) (iblk0 V c 2 ⟨n + 1, hn⟩) from if_pos h]
      exact support_at V c ⟨n + 1, hn⟩ k j
    · rw [show scr0 V c (n + 1) hn = scr0 V c n (Nat.lt_of_succ_lt hn) from if_neg h]
      exact scr0_apply c n (Nat.lt_of_succ_lt hn) k j

/-- The output block after point `t`, at row `r` of the tile, column `j`: the first layer of batch element
    `t / 25` at row `(t % 25) * 400 + r`, column `j`. -/
theorem out0_apply (c : Dev nD) (t : Fin cfg0.N) (r : Fin 400) (j : Fin 64) (b : Fin 2) (q : Fin 10000)
    (hb : b.val = t.val / 25) (hq : q.val = (t.val % 25) * 400 + r.val) :
    out0 V c t (ix3 (0 : Fin 1) r j)
      = Spec.layer1 (Spec.adjOf (V c main_arg0) b) (Spec.matOf (V c main_arg1)) (Spec.matOf (V c main_arg2))
          (Spec.rowOf (V c main_call0_v0)) q j := by
  unfold out0
  refine (pay2_0_apply (iblk0 V c 0 t) (scr0 V c t.val t.isLt) (iblk0 V c 3 t) r j).trans ?_
  unfold Spec.layer1 Spec.conv
  refine congrArg Spec.leaky ?_
  refine congrArg₂ (· + ·) (Finset.sum_congr rfl fun k _ => ?_) ?_
  · rw [adj_block V c t r k b q hb hq, scr0_apply V c t.val t.isLt k j]
    rfl
  · exact (bias_block V c t j).trans rfl

end Cert.KernelIdeal.Hand

end
-- ==== Proof.KI.Value0.lean ====
/-
  Region 0: from the blocks the grid points write back to the whole output array. What point `t` writes back is the
  block of the first layer's array at batch element t / 25, rows (t % 25) * 400 … + 399; these fifty blocks tile the
  array (the point covering batch element b, row r is b * 25 + r / 400), so the array ends holding the first layer.
-/
import proofs.«122898_g28621662060800_retrytranche2_548_3_alg».proof.Proof.KI.Target
import proofs.«122898_g28621662060800_retrytranche2_548_3_alg».proof.Proof.KI.Pay
import proofs.«122898_g28621662060800_retrytranche2_548_3_alg».proof.Proof.KI.Layer0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The output block after point `t` is the first layer's array read at the block's place, entry by entry. -/
theorem out_block_eq (c : Dev nD) (t : Fin cfg0.N) (y : S1x400x64.Idx) :
    out0 V c t y = G0 V c (((cfg0.win 4).blk t).view.emb y) := by
  have hN : grid0.N = 50 := N_0
  have ht : t.val < 50 := hN ▸ t.isLt
  obtain ⟨-, -, -, -, -, -, -, -, -, e0, e1, e2⟩ := idx0 t
  obtain ⟨p, r, j, rfl⟩ : ∃ (p : Fin 1) (r : Fin 400) (j : Fin 64), y = ix3 p r j := ⟨y 0, y 1, y 2, eq_ix3 y⟩
  obtain rfl : p = 0 := Subsingleton.elim _ _
  obtain ⟨b, hb⟩ : ∃ b : Fin 2, b.val = t.val / 25 := ⟨⟨t.val / 25, by omega⟩, rfl⟩
  obtain ⟨q, hq⟩ : ∃ q : Fin 10000, q.val = (t.val % 25) * 400 + r.val := ⟨⟨(t.val % 25) * 400 + r.val, by omega⟩, rfl⟩
  have hemb : ((cfg0.win 4).blk t).view.emb (ix3 (0 : Fin 1) r j) = ix3 b q j := by
    funext a
    apply Fin.ext
    match a with
    | ⟨0, _⟩ => show win0_4.index t (0 : Fin 3) * 1 + 1 * (0 : Fin 1).val = b.val; rw [e0, hb]; simp only [Fin.val_zero]; omega
    | ⟨1, _⟩ => show win0_4.index t (1 : Fin 3) * 400 + 1 * r.val = q.val; rw [e1, hq]; omega
    | ⟨2, _⟩ => show win0_4.index t (2 : Fin 3) * 64 + 1 * j.val = j.val; rw [e2]; omega
  rw [hemb]
  exact out0_apply V c t r j b q hb hq

/-- What point `t` writes back is block `t` of the first layer's array. -/
theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  funext y
  rw [View.read_apply]
  exact out_block_eq V c t y

/-- An index of the output array is in point `t`'s block iff each coordinate is in the block's range on its axis. -/
theorem mem_blk0 (t : Fin cfg0.N) (i : S2x10000x64.Idx) :
    i ∈ ((cfg0.win 4).blk t).view.set ↔ ∀ a : Fin 3, win0_4.index t a * S1x400x64.size a ≤ (i a).val ∧ (i a).val < win0_4.index t a * S1x400x64.size a + S1x400x64.size a := by
  show i ∈ ((View.whole main_call0_v2).slice (win0_4.rect t)).set ↔ _
  rw [View.set_slice_whole, Rect.mem_set_unit]
  exact Iff.rfl

/-- The blocks tile the array: batch element `b`, row `r` lies in the block of point `b * 25 + r / 400`. -/
theorem cover0 (i : S2x10000x64.Idx) :
    ∃ t : Fin cfg0.N, (cfg0.win 4).flush t = true ∧ i ∈ ((cfg0.win 4).blk t).view.set := by
  have hN : grid0.N = 50 := N_0
  have h0 : (i 0).val < 2 := (i 0).isLt
  have h1 : (i 1).val < 10000 := (i 1).isLt
  have h2 : (i 2).val < 64 := (i 2).isLt
  obtain ⟨t, ht⟩ : ∃ t : Fin cfg0.N, t.val = (i 0).val * 25 + (i 1).val / 400 :=
    ⟨⟨(i 0).val * 25 + (i 1).val / 400, by show _ < grid0.N; omega⟩, rfl⟩
  obtain ⟨-, -, -, -, -, -, -, -, -, e0, e1, e2⟩ := idx0 t
  refine ⟨t, flush0_4 t, ?_⟩
  rw [mem_blk0]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 400 ≤ (i 1).val ∧ (i 1).val < win0_4.index t (1 : Fin 3) * 400 + 400; rw [e1, ht]; omega
  | ⟨2, _⟩ => show win0_4.index t (2 : Fin 3) * 64 ≤ (i 2).val ∧ (i 2).val < win0_4.index t (2 : Fin 3) * 64 + 64; rw [e2]; omega

/-- Region 0's output array after the region is the first layer of what the region was entered with. -/
theorem final0 (c : Dev nD) : (dat0 (F := Ideal) V c).arrAt 4 cfg0.N = G0 V c := by
  exact (dat0 V c).arrAt_eq_of_cover 4 (G0 V c) (fun t _ => flushed0_eq V c t) cover0

end Cert.KernelIdeal.Hand

end
-- ==== Proof.KI.Blocks1.lean ====
/-
  Region 1: where each window's block at a grid point sits in its array. The grid point `t` of the 2 × 25 grid has
  coordinates `(t / 25, t % 25)`: batch element and row tile. An element of a block sits in the array, on each axis, at
  the block index times the block's extent plus its coordinate inside the block.
-/
import proofs.«122898_g28621662060800_retrytranche2_548_3_alg».proof.Proof.KI.Target
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open scoped BigOperators

variable (V : (c : Dev nD) → (b : Ref sig .tc) → Buf (Elt Ideal) ((c : Thread nD τ).loc b))

/-- The block indices of the five windows at every grid point, decided once over the grid: the adjacency and the output
    move with both coordinates, the features with the batch element only, the weights and the bias stay. -/
theorem idx1 : ∀ t : Fin cfg1.N,
    win1_0.index t (0 : Fin 3) = t.val / 25 ∧ win1_0.index t (1 : Fin 3) = t.val % 25 ∧ win1_0.index t (2 : Fin 3) = 0
    ∧ win1_1.index t (0 : Fin 3) = t.val / 25 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 25 ∧ win1_4.index t (1 : Fin 3) = t.val % 25 ∧ win1_4.index t (2 : Fin 3) = 0 :=
  (by decide +kernel : ∀ t : Fin grid1.N, _)

/-- The adjacency block at point `t`: row `r` of the tile is row `(t % 25) * 400 + r` of batch element `t / 25`. -/
theorem adjBlock_apply (c : Dev nD) (t : Fin cfg1.N) (r : Fin 400) (k : Fin 10000) (b : Fin 2) (R : Fin 10000)
    (hb : b.val = t.val / 25) (hR : R.val = (t.val % 25) * 400 + r.val) :
    (iblk1 V c 0 t : Vec Ideal S1x400x10000 .f32) (ix3 (0 : Fin 1) r k) = V c main_arg0 (ix3 b R k) := by
  obtain ⟨e0, e1, e2, -⟩ := idx1 t
  unfold iblk1
  rw [View.read_apply]
  show V c main_arg0 (((cfg1.win 0).blk t).view.emb (ix3 (0 : Fin 1) r k)) = V c main_arg0 (ix3 b R k)
  congr 1
  funext a
  apply Fin.ext
  match a with
  | ⟨0, _⟩ => show win1_0.index t (0 : Fin 3) * 1 + 1 * 0 = b.val; omega
  | ⟨1, _⟩ => show win1_0.index t (1 : Fin 3) * 400 + 1 * r.val = R.val; omega
  | ⟨2, _⟩ => show win1_0.index t (2 : Fin 3) * 10000 + 1 * k.val = k.val; omega

/-- The feature block at point `t` is batch element `t / 25` of the features, whole. -/
theorem featBlock_apply (c : Dev nD) (t : Fin cfg1.N) (k : Fin 10000) (l : Fin 64) (b : Fin 2)
    (hb : b.val = t.val / 25) :
    (iblk1 V c 1 t : Vec Ideal S1x10000x64 .f32) (ix3 (0 : Fin 1) k l) = V c main_call0_v2 (ix3 b k l) := by
  obtain ⟨-, -, -, e0, e1, e2, -⟩ := idx1 t
  unfold iblk1
  rw [View.read_apply]
  show V c main_call0_v2 (((cfg1.win 1).blk t).view.emb (ix3 (0 : Fin 1) k l)) = V c main_call0_v2 (ix3 b k l)
  congr 1
  funext a
  apply Fin.ext
  match a with
  | ⟨0, _⟩ => show win1_1.index t (0 : Fin 3) * 1 + 1 * 0 = b.val; omega
  | ⟨1, _⟩ => show win1_1.index t (1 : Fin 3) * 10000 + 1 * k.val = k.val; omega
  | ⟨2, _⟩ => show win1_1.index t (2 : Fin 3) * 64 + 1 * l.val = l.val; omega

/-- The weight block at every point is the weight matrix, whole. -/
theorem weightBlock_apply (c : Dev nD) (t : Fin cfg1.N) (l : Fin 64) (j : Fin 64) :
    (iblk1 V c 2 t : Vec Ideal S64x64 .f32) (ix2 l j) = V c main_arg4 (ix2 l j) := by
  obtain ⟨-, -, -, -, -, -, e0, e1, -⟩ := idx1 t
  unfold iblk1
  rw [View.read_apply]
  show V c main_arg4 (((cfg1.win 2).blk t).view.emb (ix2 l j)) = V c main_arg4 (ix2 l j)
  congr 1
  funext a
  apply Fin.ext
  match a with
  | ⟨0, _⟩ => show win1_2.index t (0 : Fin 2) * 64 + 1 * l.val = l.val; omega
  | ⟨1, _⟩ => show win1_2.index t (1 : Fin 2) * 64 + 1 * j.val = j.val; omega

/-- The bias block at every point is the bias row, whole. -/
theorem biasBlock_apply (c : Dev nD) (t : Fin cfg1.N) (j : Fin 64) :
    (iblk1 V c 3 t : Vec Ideal S1x64 .f32) (ix2 (0 : Fin 1) j) = V c main_call0_v1 (ix2 (0 : Fin 1) j) := by
  obtain ⟨-, -, -, -, -, -, -, -, e0, e1, -⟩ := idx1 t
  unfold iblk1
  rw [View.read_apply]
  show V c main_call0_v1 (((cfg1.win 3).blk t).view.emb (ix2 (0 : Fin 1) j)) = V c main_call0_v1 (ix2 (0 : Fin 1) j)
  congr 1
  funext a
  apply Fin.ext
  match a with
  | ⟨0, _⟩ => show win1_3.index t (0 : Fin 2) * 1 + 1 * 0 = 0; omega
  | ⟨1, _⟩ => show win1_3.index t (1 : Fin 2) * 64 + 1 * j.val = j.val; omega

end Cert.KernelIdeal.Hand

end
-- ==== Proof.KI.Points1.lean ====
/-
  Region 1: what the carried scratch and the output block hold after a grid point, entry by entry. The scratch after a
  point of batch element `b` is the features of `b` times the weights (stored at the first row tile of `b`, kept at the
  other 24); the output block at point `t` is the second layer of batch element `t / 25` on the rows of tile `t % 25`.
-/
import proofs.«122898_g28621662060800_retrytranche2_548_3_alg».proof.Proof.KI.Blocks1
import proofs.«122898_g28621662060800_retrytranche2_548_3_alg».proof.Proof.KI.Pay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open scoped BigOperators

variable (V : (c : Dev nD) → (b : Ref sig .tc) → Buf (Elt Ideal) ((c : Thread nD τ).loc b))

/-- The scratch payload at a point of batch element `b`, at row `k` and column `j`: the features of `b` times the
    weights there. -/
theorem supportAt_apply (c : Dev nD) (t : Fin cfg1.N) (b : Fin 2) (hb : b.val = t.val / 25) (k : Fin 10000) (j : Fin 64) :
    k1_pay1 (F := Ideal) (iblk1 V c 1 t) (iblk1 V c 2 t) (ix2 k j)
      = Spec.support (Spec.batchOf (V c main_call0_v2) b) (Spec.matOf (V c main_arg4)) k j := by
  refine (pay1_1_apply (iblk1 V c 1 t) (iblk1 V c 2 t) k j).trans ?_
  unfold Spec.support Spec.batchOf Spec.matOf
  refine Finset.sum_congr rfl fun l _ => ?_
  exact congrArg₂ (· * ·) (featBlock_apply V c t k l b hb) (weightBlock_apply V c t l j)

/-- The scratch after the point at position `n`, a point of batch element `b = n / 25`: the features of `b` times the
    weights. By induction on the position: a first row tile stores it, any other keeps what the point before left, and
    the point before is of the same batch element. -/
theorem scr1_apply (c : Dev nD) : ∀ (n : ℕ) (hn : n < cfg1.N) (b : Fin 2), b.val = n / 25 → ∀ (k : Fin 10000) (j : Fin 64),
    scr1 V c n hn (ix2 k j) = Spec.support (Spec.batchOf (V c main_call0_v2) b) (Spec.matOf (V c main_arg4)) k j
  | 0, hn, b, hb, k, j => supportAt_apply V c ⟨0, hn⟩ b hb k j
  | n + 1, hn, b, hb, k, j => by
    by_cases h : (n + 1) % 25 = 0
    · exact (congrFun (if_pos h : scr1 V c (n + 1) hn = _) (ix2 k j)).trans (supportAt_apply V c ⟨n + 1, hn⟩ b hb k j)
    · exact (congrFun (if_neg h : scr1 V c (n + 1) hn = _) (ix2 k j)).trans
        (scr1_apply c n (Nat.lt_of_succ_lt hn) b (by omega) k j)

/-- The output block after point `t`, at row `r` of the tile and column `j`: the second layer of batch element
    `b = t / 25` at row `R = (t % 25) * 400 + r`. -/
theorem out1_apply (c : Dev nD) (t : Fin cfg1.N) (r : Fin 400) (j : Fin 64) (b : Fin 2) (R : Fin 10000)
    (hb : b.val = t.val / 25) (hR : R.val = (t.val % 25) * 400 + r.val) :
    (out1 V c t : Vec Ideal S1x400x64 .f32) (ix3 (0 : Fin 1) r j)
      = Spec.layer2 (Spec.adjOf (V c main_arg0) b) (Spec.batchOf (V c main_call0_v2) b) (Spec.matOf (V c main_arg4))
          (Spec.rowOf (V c main_call0_v1)) R j := by
  unfold out1
  refine (pay2_1_apply (iblk1 V c 0 t) (scr1 V c t.val t.isLt) (iblk1 V c 3 t) r j).trans ?_
  unfold Spec.layer2 Spec.conv Spec.adjOf Spec.rowOf
  refine congrArg₂ (· + ·) (Finset.sum_congr rfl fun k _ => ?_) (biasBlock_apply V c t j)
  exact congrArg₂ (· * ·) (adjBlock_apply V c t r k b R hb hR) (scr1_apply V c t.val t.isLt b hb k j)

end Cert.KernelIdeal.Hand

end
-- ==== Proof.KI.Value1.lean ====
/-
  Region 1: from the blocks the grid points write back to the whole output array.
-/
import proofs.«122898_g28621662060800_retrytranche2_548_3_alg».proof.Proof.KI.Target
import proofs.«122898_g28621662060800_retrytranche2_548_3_alg».proof.Proof.KI.Pay
import proofs.«122898_g28621662060800_retrytranche2_548_3_alg».proof.Proof.KI.Points1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The output block after point `t` at row `r` of the tile and column `j` is the second layer at the index `i` of
    the output array whose batch element is `t / 25`, whose row is `(t % 25) * 400 + r` and whose column is `j`. -/
theorem out1_eq_G1 (c : Dev nD) (t : Fin cfg1.N) (r : Fin 400) (j : Fin 64) (i : S2x10000x64.Idx)
    (h0 : (i 0).val = t.val / 25) (h1 : (i 1).val = (t.val % 25) * 400 + r.val) (h2 : (i 2).val = j.val) :
    (out1 V c t : Vec Ideal S1x400x64 .f32) (ix3 (0 : Fin 1) r j) = (G1 V c : S2x10000x64.Idx → EReal) i := by
  refine (out1_apply V c t r j (i 0) (i 1) h0 h1).trans ?_
  obtain rfl : j = i 2 := Fin.ext h2.symm
  rfl

/-- What point `t` writes back is its block of the second layer: an element of the block sits in the output array, on
    each axis, at the block index times the block's extent plus its coordinate inside the block. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  obtain ⟨-, -, -, -, -, -, -, -, -, -, e0, e1, e2⟩ := idx1 t
  funext y
  obtain ⟨y0, r, j, rfl⟩ : ∃ (y0 : Fin 1) (r : Fin 400) (j : Fin 64), y = ix3 y0 r j :=
    ⟨y 0, y 1, y 2, eq_ix3 (n0 := 1) (n1 := 400) (n2 := 64) y⟩
  obtain rfl : y0 = 0 := Subsingleton.elim _ _
  show (out1 V c t : Vec Ideal S1x400x64 .f32) (ix3 (0 : Fin 1) r j)
      = (G1 V c : S2x10000x64.Idx → EReal) (((cfg1.win 4).blk t).view.emb (ix3 (0 : Fin 1) r j))
  refine out1_eq_G1 V c t r j _ ?_ ?_ ?_
  · show win1_4.index t (0 : Fin 3) * 1 + 1 * 0 = t.val / 25; omega
  · show win1_4.index t (1 : Fin 3) * 400 + 1 * r.val = t.val % 25 * 400 + r.val; omega
  · show win1_4.index t (2 : Fin 3) * 64 + 1 * j.val = j.val; omega

/-- Every index of the output array is in some point's block: batch element `b`, row `R` is written back by the point
    `b * 25 + R / 400`. -/
theorem cover1 (c : Dev nD) (i : S2x10000x64.Idx) :
    ∃ t : Fin cfg1.N, (cfg1.win 4).flush t = true ∧ i ∈ ((cfg1.win 4).blk t).view.set := by
  have hN : grid1.N = 50 := N_1
  have h0 : (i 0).val < 2 := (i 0).isLt
  have h1 : (i 1).val < 10000 := (i 1).isLt
  have h2 : (i 2).val < 64 := (i 2).isLt
  have ht : (i 0).val * 25 + (i 1).val / 400 < cfg1.N := by show _ < grid1.N; omega
  obtain ⟨t, hv⟩ : ∃ t : Fin cfg1.N, t.val = (i 0).val * 25 + (i 1).val / 400 := ⟨⟨_, ht⟩, rfl⟩
  obtain ⟨-, -, -, -, -, -, -, -, -, -, e0, e1, e2⟩ := idx1 t
  refine ⟨t, flush1_4 t, ?_⟩
  show i ∈ ((View.whole main_v0).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 400 ≤ (i 1).val ∧ (i 1).val < win1_4.index t (1 : Fin 3) * 400 + 400; omega
  | ⟨2, _⟩ => show win1_4.index t (2 : Fin 3) * 64 ≤ (i 2).val ∧ (i 2).val < win1_4.index t (2 : Fin 3) * 64 + 64; omega

/-- Region 1's output array after the region is the second layer of what the region was entered with. -/
theorem final1 (c : Dev nD) : (dat1 (F := Ideal) V c).arrAt 4 cfg1.N = G1 V c :=
  (dat1 V c).arrAt_eq_of_cover 4 (G1 V c) (fun t _ => flushed1_eq V c t) (fun i => cover1 c i)

end Cert.KernelIdeal.Hand

end
-- ==== Proof.KI.Bridge.lean ====
/-
  The idealized kernel's result array as the network of Spec.lean applied to the launch memory's argument arrays:
  region 1's output is the second layer of what it was entered with, its feature batch being region 0's output, the
  first layer; the adjacency batch and the weights reach both regions as launched, and each bias row is the bias
  vector with a unit axis in front.
-/
import proofs.«122898_g28621662060800_retrytranche2_548_3_alg».proof.Proof.KI.Run
import proofs.«122898_g28621662060800_retrytranche2_548_3_alg».proof.Proof.KI.Value0
import proofs.«122898_g28621662060800_retrytranche2_548_3_alg».proof.Proof.KI.Value1
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## What region 0 is entered with -/

theorem E1_arg0 (c : Dev nD) : E1 m c main_arg0 = m ((c : Thread nD τ).loc main_arg0) := (Gen.V1_of m c main_arg0 (by decide)).trans rfl
theorem E1_arg1 (c : Dev nD) : E1 m c main_arg1 = m ((c : Thread nD τ).loc main_arg1) := (Gen.V1_of m c main_arg1 (by decide)).trans rfl
theorem E1_arg2 (c : Dev nD) : E1 m c main_arg2 = m ((c : Thread nD τ).loc main_arg2) := (Gen.V1_of m c main_arg2 (by decide)).trans rfl
/-- The first layer's bias row: the bias vector with a unit axis in front. -/
theorem E1_bias (c : Dev nD) :
    E1 m c main_call0_v0 = shapeCast S1x64 (m ((c : Thread nD τ).loc main_arg3) : S64.Idx → EReal) shapeCasts_S64_S1x64 := by
  show StableHlo.after hostOps0 (fun b => m (c, b)) (Proc.devRef .tc main_call0_v0) = _
  after_results; rfl

/-! ## What region 1 is entered with -/

theorem E2_arg0 (c : Dev nD) : E2 m c main_arg0 = m ((c : Thread nD τ).loc main_arg0) := (W2_in m c 0 rfl).trans (E1_arg0 m c)
theorem E2_arg4 (c : Dev nD) : E2 m c main_arg4 = m ((c : Thread nD τ).loc main_arg4) :=
  (W2_of_ne m c main_arg4 (by decide)).trans ((Gen.V1_of m c main_arg4 (by decide)).trans rfl)
/-- The second layer's bias row. -/
theorem E2_bias (c : Dev nD) :
    E2 m c main_call0_v1 = shapeCast S1x64 (m ((c : Thread nD τ).loc main_arg5) : S64.Idx → EReal) shapeCasts_S64_S1x64 := by
  refine (W2_of_ne m c main_call0_v1 (by decide)).trans ?_
  show StableHlo.after hostOps0 (fun b => m (c, b)) (Proc.devRef .tc main_call0_v1) = _
  after_results; rfl
/-- The second layer's features: the first layer's result. -/
theorem E2_feat (c : Dev nD) : E2 m c main_call0_v2 = G0 (E1 m) c := (W2_arr m c 4).trans (final0 (E1 m) c)

/-- A bias vector cast to a row reads, along the row, the vector. -/
theorem rowOf_cast (v : S64.Idx → EReal) : Spec.rowOf (shapeCast S1x64 v shapeCasts_S64_S1x64) = Spec.vecOf v :=
  funext fun j => shapeCast_a_1a_apply v shapeCasts_S64_S1x64 0 j

/-! ## The result -/

/-- Region 1's output array, in terms of the launch memory: the network at every batch element, row and column. -/
theorem kernel_value (c : Dev nD) :
    (dat1 (F := Ideal) (E2 m) c).arrAt 4 cfg1.N
      = fun i => Spec.net (Spec.adjOf (m ((c : Thread nD τ).loc main_arg0))) (Spec.matOf (m ((c : Thread nD τ).loc main_arg1)))
          (Spec.matOf (m ((c : Thread nD τ).loc main_arg2))) (Spec.vecOf (m ((c : Thread nD τ).loc main_arg3)))
          (Spec.matOf (m ((c : Thread nD τ).loc main_arg4))) (Spec.vecOf (m ((c : Thread nD τ).loc main_arg5))) (i 0) (i 1) (i 2) := by
  rw [final1]
  unfold G1
  rw [E2_arg0, E2_arg4, E2_bias, E2_feat, rowOf_cast]
  unfold G0
  rw [E1_arg0, E1_arg1, E1_arg2, E1_bias, rowOf_cast]
  rfl

end Cert.KernelIdeal.Hand

end
-- ==== Proof.RefStages.lean ====
/-
  The reference program read stage by stage at coordinates. For each batch element the reference slices that
  element's adjacency matrix out of the batch, forms features times weights, multiplies by the adjacency matrix, adds
  the bias to every row, applies the leaky rectifier, and repeats the first three steps with the second layer's
  weights and bias; the two results are stacked along a new leading axis. Each lemma below reads one of these arrays
  at a row and a column given as literal coordinates and identifies the entry with the corresponding function of
  Spec.lean applied to the argument arrays. Sums over the 10000 nodes and the 64 features stay symbolic.
-/
import proofs.«122898_g28621662060800_retrytranche2_548_3_alg».proof.Proof.Gen.ReferenceIdeal.Read
import proofs.«122898_g28621662060800_retrytranche2_548_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S2x10000x10000, .f32⟩ : BufTy).Contents (Elt Ideal))
  (x1 : (⟨S10000x64, .f32⟩ : BufTy).Contents (Elt Ideal))
  (x2 : (⟨S64x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))

/-! ## Batch element 0 -/

/-- The slice of batch element 0 followed by the reshape to a matrix, at row `r` and column `k`: the row-major
    position `r * 10000 + k` splits back into `r` and `k`. -/
theorem adj_b0 (r k : Fin 10000) : val_main_v1 (F := Ideal) x0 (ix2 r k) = Spec.adjOf x0 0 r k := by
  rw [val_main_v1_apply, val_main_v0_apply]
  unfold Spec.adjOf
  refine congrArg x0 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Features times the first layer's weights, at row `k` and column `j`. -/
theorem sup1_b0 (k : Fin 10000) (j : Fin 64) :
    val_main_v2 (F := Ideal) x1 x2 (ix2 k j) = Spec.support (Spec.matOf x1) (Spec.matOf x2) k j := by
  rw [val_main_v2_apply]
  unfold Spec.support
  refine Finset.sum_congr rfl fun l _ => ?_
  rw [show lidx_main_v2 (ix2 k j) l = ix2 k l from funext fun a => Fin.ext (by match a with | ⟨0, _⟩ => rfl | ⟨1, _⟩ => rfl),
    show ridx_main_v2 (ix2 k j) l = ix2 l j from funext fun a => Fin.ext (by match a with | ⟨0, _⟩ => rfl | ⟨1, _⟩ => rfl)]
  rfl

/-- The first layer before the rectifier: the adjacency matrix times the support, plus the bias (a vector of 64
    entries broadcast to one row and then down the 10000 rows), at row `r` and column `j`. -/
theorem conv1_b0 (r : Fin 10000) (j : Fin 64) :
    val_main_v6 (F := Ideal) x0 x1 x2 x3 (ix2 r j)
      = Spec.conv (Spec.adjOf x0 0) (Spec.support (Spec.matOf x1) (Spec.matOf x2)) (Spec.vecOf x3) r j := by
  rw [val_main_v6_apply, val_main_v3_apply, val_main_v5_apply, val_main_v4_apply, Ideal.addf_def]
  unfold Spec.conv
  refine congrArg₂ (· + ·) (Finset.sum_congr rfl fun k _ => ?_) ?_
  · rw [show lidx_main_v3 (ix2 r j) k = ix2 r k from funext fun a => Fin.ext (by match a with | ⟨0, _⟩ => rfl | ⟨1, _⟩ => rfl),
      show ridx_main_v3 (ix2 r j) k = ix2 k j from funext fun a => Fin.ext (by match a with | ⟨0, _⟩ => rfl | ⟨1, _⟩ => rfl),
      adj_b0, sup1_b0]
  · exact congrArg x3 (funext fun a => Fin.ext (by match a with | ⟨0, _⟩ => rfl))

/-- The first layer: the rectifier is spelt as the comparison with zero selecting between the value and its multiple
    by the constant, exactly as `Spec.leaky`. -/
theorem layer1_b0 (r : Fin 10000) (j : Fin 64) :
    val_main_v11 (F := Ideal) x0 x1 x2 x3 (ix2 r j)
      = Spec.layer1 (Spec.adjOf x0 0) (Spec.matOf x1) (Spec.matOf x2) (Spec.vecOf x3) r j := by
  rw [val_main_v11_apply, val_main_v8_apply, val_main_v10_apply, val_main_v7_apply, val_main_v9_apply,
    val_main_cst_apply, val_main_cst_0_apply, conv1_b0]
  rfl

/-- The first layer's output times the second layer's weights, at row `k` and column `j`. -/
theorem sup2_b0 (k : Fin 10000) (j : Fin 64) :
    val_main_v12 (F := Ideal) x0 x1 x2 x3 x4 (ix2 k j)
      = Spec.support (Spec.layer1 (Spec.adjOf x0 0) (Spec.matOf x1) (Spec.matOf x2) (Spec.vecOf x3)) (Spec.matOf x4) k j := by
  rw [val_main_v12_apply]
  unfold Spec.support
  refine Finset.sum_congr rfl fun l _ => ?_
  rw [show lidx_main_v12 (ix2 k j) l = ix2 k l from funext fun a => Fin.ext (by match a with | ⟨0, _⟩ => rfl | ⟨1, _⟩ => rfl),
    show ridx_main_v12 (ix2 k j) l = ix2 l j from funext fun a => Fin.ext (by match a with | ⟨0, _⟩ => rfl | ⟨1, _⟩ => rfl),
    layer1_b0]
  rfl

/-- The second layer, which is the network's value for batch element 0, at row `r` and column `j`. -/
theorem layer2_b0 (r : Fin 10000) (j : Fin 64) :
    val_main_v16 (F := Ideal) x0 x1 x2 x3 x4 x5 (ix2 r j)
      = Spec.net (Spec.adjOf x0) (Spec.matOf x1) (Spec.matOf x2) (Spec.vecOf x3) (Spec.matOf x4) (Spec.vecOf x5) 0 r j := by
  rw [val_main_v16_apply, val_main_v13_apply, val_main_v15_apply, val_main_v14_apply, Ideal.addf_def]
  unfold Spec.net Spec.layer2 Spec.conv
  refine congrArg₂ (· + ·) (Finset.sum_congr rfl fun k _ => ?_) ?_
  · rw [show lidx_main_v13 (ix2 r j) k = ix2 r k from funext fun a => Fin.ext (by match a with | ⟨0, _⟩ => rfl | ⟨1, _⟩ => rfl),
      show ridx_main_v13 (ix2 r j) k = ix2 k j from funext fun a => Fin.ext (by match a with | ⟨0, _⟩ => rfl | ⟨1, _⟩ => rfl),
      adj_b0, sup2_b0]
  · exact congrArg x5 (funext fun a => Fin.ext (by match a with | ⟨0, _⟩ => rfl))

/-- The same matrix as a one-element batch. -/
theorem slab_b0 (r : Fin 10000) (j : Fin 64) :
    val_main_v34 (F := Ideal) x0 x1 x2 x3 x4 x5 (ix3 (0 : Fin 1) r j)
      = Spec.net (Spec.adjOf x0) (Spec.matOf x1) (Spec.matOf x2) (Spec.vecOf x3) (Spec.matOf x4) (Spec.vecOf x5) 0 r j := by
  rw [val_main_v34_apply,
    show idx_main_v34 (ix3 (0 : Fin 1) r j) = ix2 r j from funext fun a => Fin.ext (by match a with | ⟨0, _⟩ => rfl | ⟨1, _⟩ => rfl),
    layer2_b0]

/-! ## Batch element 1 -/

/-- The slice of batch element 1 followed by the reshape to a matrix, at row `r` and column `k`: the row-major
    position `r * 10000 + k` splits back into `r` and `k`. -/
theorem adj_b1 (r k : Fin 10000) : val_main_v18 (F := Ideal) x0 (ix2 r k) = Spec.adjOf x0 1 r k := by
  rw [val_main_v18_apply, val_main_v17_apply]
  unfold Spec.adjOf
  refine congrArg x0 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Features times the first layer's weights, at row `k` and column `j`. -/
theorem sup1_b1 (k : Fin 10000) (j : Fin 64) :
    val_main_v19 (F := Ideal) x1 x2 (ix2 k j) = Spec.support (Spec.matOf x1) (Spec.matOf x2) k j := by
  rw [val_main_v19_apply]
  unfold Spec.support
  refine Finset.sum_congr rfl fun l _ => ?_
  rw [show lidx_main_v19 (ix2 k j) l = ix2 k l from funext fun a => Fin.ext (by match a with | ⟨0, _⟩ => rfl | ⟨1, _⟩ => rfl),
    show ridx_main_v19 (ix2 k j) l = ix2 l j from funext fun a => Fin.ext (by match a with | ⟨0, _⟩ => rfl | ⟨1, _⟩ => rfl)]
  rfl

/-- The first layer before the rectifier: the adjacency matrix times the support, plus the bias (a vector of 64
    entries broadcast to one row and then down the 10000 rows), at row `r` and column `j`. -/
theorem conv1_b1 (r : Fin 10000) (j : Fin 64) :
    val_main_v23 (F := Ideal) x0 x1 x2 x3 (ix2 r j)
      = Spec.conv (Spec.adjOf x0 1) (Spec.support (Spec.matOf x1) (Spec.matOf x2)) (Spec.vecOf x3) r j := by
  rw [val_main_v23_apply, val_main_v20_apply, val_main_v22_apply, val_main_v21_apply, Ideal.addf_def]
  unfold Spec.conv
  refine congrArg₂ (· + ·) (Finset.sum_congr rfl fun k _ => ?_) ?_
  · rw [show lidx_main_v20 (ix2 r j) k = ix2 r k from funext fun a => Fin.ext (by match a with | ⟨0, _⟩ => rfl | ⟨1, _⟩ => rfl),
      show ridx_main_v20 (ix2 r j) k = ix2 k j from funext fun a => Fin.ext (by match a with | ⟨0, _⟩ => rfl | ⟨1, _⟩ => rfl),
      adj_b1, sup1_b1]
  · exact congrArg x3 (funext fun a => Fin.ext (by match a with | ⟨0, _⟩ => rfl))

/-- The first layer: the rectifier is spelt as the comparison with zero selecting between the value and its multiple
    by the constant, exactly as `Spec.leaky`. -/
theorem layer1_b1 (r : Fin 10000) (j : Fin 64) :
    val_main_v28 (F := Ideal) x0 x1 x2 x3 (ix2 r j)
      = Spec.layer1 (Spec.adjOf x0 1) (Spec.matOf x1) (Spec.matOf x2) (Spec.vecOf x3) r j := by
  rw [val_main_v28_apply, val_main_v25_apply, val_main_v27_apply, val_main_v24_apply, val_main_v26_apply,
    val_main_cst_1_apply, val_main_cst_2_apply, conv1_b1]
  rfl

/-- The first layer's output times the second layer's weights, at row `k` and column `j`. -/
theorem sup2_b1 (k : Fin 10000) (j : Fin 64) :
    val_main_v29 (F := Ideal) x0 x1 x2 x3 x4 (ix2 k j)
      = Spec.support (Spec.layer1 (Spec.adjOf x0 1) (Spec.matOf x1) (Spec.matOf x2) (Spec.vecOf x3)) (Spec.matOf x4) k j := by
  rw [val_main_v29_apply]
  unfold Spec.support
  refine Finset.sum_congr rfl fun l _ => ?_
  rw [show lidx_main_v29 (ix2 k j) l = ix2 k l from funext fun a => Fin.ext (by match a with | ⟨0, _⟩ => rfl | ⟨1, _⟩ => rfl),
    show ridx_main_v29 (ix2 k j) l = ix2 l j from funext fun a => Fin.ext (by match a with | ⟨0, _⟩ => rfl | ⟨1, _⟩ => rfl),
    layer1_b1]
  rfl

/-- The second layer, which is the network's value for batch element 1, at row `r` and column `j`. -/
theorem layer2_b1 (r : Fin 10000) (j : Fin 64) :
    val_main_v33 (F := Ideal) x0 x1 x2 x3 x4 x5 (ix2 r j)
      = Spec.net (Spec.adjOf x0) (Spec.matOf x1) (Spec.matOf x2) (Spec.vecOf x3) (Spec.matOf x4) (Spec.vecOf x5) 1 r j := by
  rw [val_main_v33_apply, val_main_v30_apply, val_main_v32_apply, val_main_v31_apply, Ideal.addf_def]
  unfold Spec.net Spec.layer2 Spec.conv
  refine congrArg₂ (· + ·) (Finset.sum_congr rfl fun k _ => ?_) ?_
  · rw [show lidx_main_v30 (ix2 r j) k = ix2 r k from funext fun a => Fin.ext (by match a with | ⟨0, _⟩ => rfl | ⟨1, _⟩ => rfl),
      show ridx_main_v30 (ix2 r j) k = ix2 k j from funext fun a => Fin.ext (by match a with | ⟨0, _⟩ => rfl | ⟨1, _⟩ => rfl),
      adj_b1, sup2_b1]
  · exact congrArg x5 (funext fun a => Fin.ext (by match a with | ⟨0, _⟩ => rfl))

/-- The same matrix as a one-element batch. -/
theorem slab_b1 (r : Fin 10000) (j : Fin 64) :
    val_main_v35 (F := Ideal) x0 x1 x2 x3 x4 x5 (ix3 (0 : Fin 1) r j)
      = Spec.net (Spec.adjOf x0) (Spec.matOf x1) (Spec.matOf x2) (Spec.vecOf x3) (Spec.matOf x4) (Spec.vecOf x5) 1 r j := by
  rw [val_main_v35_apply,
    show idx_main_v35 (ix3 (0 : Fin 1) r j) = ix2 r j from funext fun a => Fin.ext (by match a with | ⟨0, _⟩ => rfl | ⟨1, _⟩ => rfl),
    layer2_b1]

/-! ## The stack of the two batch elements -/

/-- The result array at batch element 0 is the first slab. -/
theorem stack_b0 (r : Fin 10000) (j : Fin 64) :
    val_main_v36 (F := Ideal) x0 x1 x2 x3 x4 x5 (ix3 (0 : Fin 2) r j)
      = val_main_v34 (F := Ideal) x0 x1 x2 x3 x4 x5 (ix3 (0 : Fin 1) r j) := by
  unfold val_main_v36
  generalize val_main_v34 (F := Ideal) x0 x1 x2 x3 x4 x5 = y0
  generalize val_main_v35 (F := Ideal) x0 x1 x2 x3 x4 x5 = y1
  exact concatenate_pair_apply_left (0 : Fin S2x10000x64.rank) y0 y1 concatenates_S1x10000x64_S1x10000x64_S2x10000x64_d0
    (ix3 (0 : Fin 2) r j) rfl (ix3 (0 : Fin 1) r j)
    (fun b => by match b with | ⟨0, _⟩ => rfl | ⟨1, _⟩ => rfl | ⟨2, _⟩ => rfl)

/-- The result array at batch element 1 is the second slab. -/
theorem stack_b1 (r : Fin 10000) (j : Fin 64) :
    val_main_v36 (F := Ideal) x0 x1 x2 x3 x4 x5 (ix3 (1 : Fin 2) r j)
      = val_main_v35 (F := Ideal) x0 x1 x2 x3 x4 x5 (ix3 (0 : Fin 1) r j) := by
  unfold val_main_v36
  generalize val_main_v34 (F := Ideal) x0 x1 x2 x3 x4 x5 = y0
  generalize val_main_v35 (F := Ideal) x0 x1 x2 x3 x4 x5 = y1
  exact concatenate_pair_apply_right (0 : Fin S2x10000x64.rank) y0 y1 concatenates_S1x10000x64_S1x10000x64_S2x10000x64_d0
    (ix3 (1 : Fin 2) r j) rfl rfl (ix3 (0 : Fin 1) r j)
    (fun b hb => by
      match b, hb with
      | ⟨0, _⟩, hb => exact absurd rfl hb
      | ⟨1, _⟩, _ => rfl
      | ⟨2, _⟩, _ => rfl)
    rfl

/-- The reference's result array at batch element `b`, row `r`, column `j` is the network there. -/
theorem val_net (b : Fin 2) (r : Fin 10000) (j : Fin 64) :
    val_main_v36 (F := Ideal) x0 x1 x2 x3 x4 x5 (ix3 b r j)
      = Spec.net (Spec.adjOf x0) (Spec.matOf x1) (Spec.matOf x2) (Spec.vecOf x3) (Spec.matOf x4) (Spec.vecOf x5) b r j := by
  match b with
  | ⟨0, _⟩ => exact (stack_b0 x0 x1 x2 x3 x4 x5 r j).trans (slab_b0 x0 x1 x2 x3 x4 x5 r j)
  | ⟨1, _⟩ => exact (stack_b1 x0 x1 x2 x3 x4 x5 r j).trans (slab_b1 x0 x1 x2 x3 x4 x5 r j)

end Cert.ReferenceIdeal.RefValue

end
-- ==== Proof.Ref.lean ====
/-
  The reference's result, read entry by entry, is the network of Spec.lean applied to the argument arrays.
-/
import proofs.«122898_g28621662060800_retrytranche2_548_3_alg».proof.Proof.Gen.ReferenceIdeal.Read
import proofs.«122898_g28621662060800_retrytranche2_548_3_alg».proof.Proof.Spec
import proofs.«122898_g28621662060800_retrytranche2_548_3_alg».proof.Proof.RefStages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value

/-- The reference's result array is the network at every batch element, row and column. -/
theorem ref_eq (m : (ℓ : Loc nD τ sig) → Buf (Elt Ideal) ℓ) (c : Dev nD) :
    res_main_v36 (F := Ideal) m c
      = fun i => Spec.net (Spec.adjOf (m ((c.tc : Thread nD τ).loc main_arg0))) (Spec.matOf (m ((c.tc : Thread nD τ).loc main_arg1)))
          (Spec.matOf (m ((c.tc : Thread nD τ).loc main_arg2))) (Spec.vecOf (m ((c.tc : Thread nD τ).loc main_arg3)))
          (Spec.matOf (m ((c.tc : Thread nD τ).loc main_arg4))) (Spec.vecOf (m ((c.tc : Thread nD τ).loc main_arg5))) (i 0) (i 1) (i 2) := by
  -- the result's composed term is the last stage's value; an index is its three coordinates; the stage lemmas do the rest
  rw [Read.val_main_v36_eq]
  funext i
  obtain ⟨b, r, j, rfl⟩ : ∃ (b : Fin 2) (r : Fin 10000) (j : Fin 64), i = ix3 b r j := ⟨i 0, i 1, i 2, eq_ix3 i⟩
  exact val_net _ _ _ _ _ _ b r j

end Cert.ReferenceIdeal.RefValue

end
-- ==== Proof.lean ====
/-
  Two-layer graph convolution over a batch of two dense adjacency matrices: the Pallas kernel (one pipelined call per
  layer over the grid of batch elements and row tiles, the product features·weights kept in a scratch buffer across the
  row tiles of a batch element) against the plain reference (per batch element: adj · (x · W₁) + b₁, the leaky
  rectifier, adj · (· W₂) + b₂; stacked).

  Both programs, read on the extended reals, compute the function `Spec.net` of Proof/Spec.lean entry by entry: each
  forms features·weights first and multiplies by the adjacency matrix afterwards, adds the bias row, and (first layer)
  applies the rectifier as a comparison with zero selecting between the value and its multiple by the same binary32
  constant. The rounding of the matmul operands to bfloat16 in the kernel is the identity on the extended reals. No
  algebraic law is needed beyond this common reading, so the precondition (finite inputs) is never opened.

  The kernel's run is proved from the pipeline rule, region by region: the body's triple in its two cases (first row
  tile of a batch element, where the scratch is recomputed; the other row tiles, where it is found as the point before
  left it), the invariant carrying the scratch's contents between grid points, the program as its three items (the
  host reshapes of the two bias vectors, region 0, region 1) with every unscoped buffer's contents between them. The
  word-level kernel's frame is the same proof at the word instance. The value of the idealized kernel's result is read
  off the blocks the grid points write back (Proof/KI/Value0.lean, Value1.lean, Bridge.lean); the reference's off its
  generated run (Proof/Ref.lean).
-/
import proofs.«122898_g28621662060800_retrytranche2_548_3_alg».proof.Defs
import proofs.«122898_g28621662060800_retrytranche2_548_3_alg».proof.Proof.Gen.Kernel
import proofs.«122898_g28621662060800_retrytranche2_548_3_alg».proof.Proof.Gen.KernelIdeal
import proofs.«122898_g28621662060800_retrytranche2_548_3_alg».proof.Proof.Gen.ReferenceIdeal
import proofs.«122898_g28621662060800_retrytranche2_548_3_alg».proof.Proof.Gen.Pre_finite_inputs
import proofs.«122898_g28621662060800_retrytranche2_548_3_alg».proof.Proof.Gen.ReferenceIdeal.Run
import proofs.«122898_g28621662060800_retrytranche2_548_3_alg».proof.Proof.K.Run
import proofs.«122898_g28621662060800_retrytranche2_548_3_alg».proof.Proof.KI.Run
import proofs.«122898_g28621662060800_retrytranche2_548_3_alg».proof.Proof.KI.Bridge
import proofs.«122898_g28621662060800_retrytranche2_548_3_alg».proof.Proof.Ref
import Idealize.ShloMosaic.Adequacy
import Idealize.ShloMosaic.Init

noncomputable section

namespace Cert.Proof

open Idealize.ShloMosaic Idealize.ShloMosaic.TcCoe Idealize.SL.Sem

namespace Claims

/-- The word-level kernel runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- The idealized kernel runs and leaves its arguments as launched. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference runs and leaves its arguments as launched. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote nothing. -/
theorem preserves : Cert.preserves_Kernel_KernelIdeal := trivial

/-- On the extended reals, from memories agreeing on the arguments, both programs end with the network of Spec.lean
    of the argument arrays in their result. -/
theorem algebraic : Cert.algebraic_KernelIdeal_ReferenceIdeal := by
  intro m ρ m' ρ' _ hagree
  refine ⟨fun c => fun i => Spec.net
      (Spec.adjOf (m ((c.tc : Thread Cert.KernelIdeal.nD Cert.KernelIdeal.τ).loc Cert.KernelIdeal.main_arg0)))
      (Spec.matOf (m ((c.tc : Thread Cert.KernelIdeal.nD Cert.KernelIdeal.τ).loc Cert.KernelIdeal.main_arg1)))
      (Spec.matOf (m ((c.tc : Thread Cert.KernelIdeal.nD Cert.KernelIdeal.τ).loc Cert.KernelIdeal.main_arg2)))
      (Spec.vecOf (m ((c.tc : Thread Cert.KernelIdeal.nD Cert.KernelIdeal.τ).loc Cert.KernelIdeal.main_arg3)))
      (Spec.matOf (m ((c.tc : Thread Cert.KernelIdeal.nD Cert.KernelIdeal.τ).loc Cert.KernelIdeal.main_arg4)))
      (Spec.vecOf (m ((c.tc : Thread Cert.KernelIdeal.nD Cert.KernelIdeal.τ).loc Cert.KernelIdeal.main_arg5))) (i 0) (i 1) (i 2), ?_, ?_⟩
  · exact (θ_run (Cert.KernelIdeal.defs (F := Ideal)) _ _).mono
      (fun _ h c => ⟨(h c).1.trans (Cert.KernelIdeal.Hand.kernel_value m c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.RefValue.ref_eq, (hagree c).1, (hagree c).2.1, (hagree c).2.2.1, (hagree c).2.2.2.1,
      (hagree c).2.2.2.2.1, (hagree c).2.2.2.2.2]
    rfl

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
